-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S4x10 : Shape := ⟨2, ![4, 10]⟩
abbrev S10 : Shape := ⟨1, ![10]⟩
abbrev S10x3 : Shape := ⟨2, ![10, 3]⟩
abbrev S3 : Shape := ⟨1, ![3]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S4x10 : S_.BroadcastsInDim S4x10 (![] : Fin 0 → Fin S4x10.rank)
  reducesTo_S4x10_S_d0_1 : S4x10.ReducesTo [0, 1] S_
  bcast_S_S10 : S_.BroadcastsInDim S10 (![] : Fin 0 → Fin S10.rank)
  reducesTo_S10_S_d0 : S10.ReducesTo [0] S_
  bcast_S_S10x3 : S_.BroadcastsInDim S10x3 (![] : Fin 0 → Fin S10x3.rank)
  reducesTo_S10x3_S_d0_1 : S10x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S10x3 1) : IVec S_ 1 :=
  let main_c_5 : IVec S_ 1 := constantI S_ 1 1#1
  let main_v17 : IVec S_ 1 := (fun x v => Host.reduce IntOp.andi x v reducesTo_S10x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S2097152x4 .f32) (main_arg1 : FVec F S4x10 .f32) (main_arg2 : FVec F S10 .f32) (main_arg3 : FVec F S10x3 .f32) (main_arg4 : FVec F S3 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S4x10 .f32 := Host.absf main_arg1
  let main_cst_0 : FVec F S_ .f32 := constant S_ .f32 0x7F800000#32
  let main_v5 : FVec F S4x10 .f32 := broadcastInDim S4x10 ![] bcast_S_S4x10 main_cst_0
  let main_v6 : IVec S4x10 1 := cmpf .olt main_v4 main_v5
  let main_c_1 : IVec S_ 1 := constantI S_ 1 1#1
  let main_v7 : IVec S_ 1 := (fun x v => Host.reduce IntOp.andi x v reducesTo_S4x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x3 .f32 := Host.absf main_arg3
  let main_cst_4 : FVec F S_ .f32 := constant S_ .f32 0x7F800000#32
  let main_v15 : FVec F S10x3 .f32 := broadcastInDim S10x3 ![] bcast_S_S10x3 main_cst_4
  let main_v16 : IVec S10x3 1 := cmpf .olt main_v14 main_v15
  fn_part1 (F := F) main_arg4 main_v13 main_v16
-- ==== Kernel.lean ====
abbrev S2097152x4 : Shape := ⟨2, ![2097152, 4]⟩
abbrev S4x10 : Shape := ⟨2, ![4, 10]⟩
abbrev S10 : Shape := ⟨1, ![10]⟩
abbrev S10x3 : Shape := ⟨2, ![10, 3]⟩
abbrev S3 : Shape := ⟨1, ![3]⟩
abbrev S32x32 : Shape := ⟨2, ![32, 32]⟩
abbrev S_ : Shape := ⟨0, ![]⟩
abbrev S4x12 : Shape := ⟨2, ![4, 12]⟩
abbrev S1 : Shape := ⟨1, ![1]⟩
abbrev S12x3 : Shape := ⟨2, ![12, 3]⟩
abbrev S32x1x32x1 : Shape := ⟨4, ![32, 1, 32, 1]⟩
abbrev S1x4x1x12 : Shape := ⟨4, ![1, 4, 1, 12]⟩
abbrev S32x4x32x12 : Shape := ⟨4, ![32, 4, 32, 12]⟩
abbrev S128x384 : Shape := ⟨2, ![128, 384]⟩
abbrev S1x12x1x3 : Shape := ⟨4, ![1, 12, 1, 3]⟩
abbrev S32x12x32x3 : Shape := ⟨4, ![32, 12, 32, 3]⟩
abbrev S384x96 : Shape := ⟨2, ![384, 96]⟩
abbrev S12 : Shape := ⟨1, ![12]⟩
abbrev S1x12 : Shape := ⟨2, ![1, 12]⟩
abbrev S32x12 : Shape := ⟨2, ![32, 12]⟩
abbrev S384 : Shape := ⟨1, ![384]⟩
abbrev S1x384 : Shape := ⟨2, ![1, 384]⟩
abbrev S1x3 : Shape := ⟨2, ![1, 3]⟩
abbrev S32x3 : Shape := ⟨2, ![32, 3]⟩
abbrev S96 : Shape := ⟨1, ![96]⟩
abbrev S1x96 : Shape := ⟨2, ![1, 96]⟩
abbrev S65536x128 : Shape := ⟨2, ![65536, 128]⟩
abbrev S65536x96 : Shape := ⟨2, ![65536, 96]⟩
abbrev S512x128 : Shape := ⟨2, ![512, 128]⟩
abbrev S512x96 : Shape := ⟨2, ![512, 96]⟩
abbrev S512x384 : Shape := ⟨2, ![512, 384]⟩
abbrev S6291456 : Shape := ⟨1, ![6291456]⟩

abbrev nBuf : Space → Nat
  | .hbm => 48
  | .vmem => 8
  | .smem => 0
  | _ => 0

abbrev bufTy : (tb : Table) → Fin (tcTables nBuf tb) → BufTy
  | .hbm, ⟨0, _⟩ => ⟨S2097152x4, .f32⟩
  | .hbm, ⟨1, _⟩ => ⟨S4x10, .f32⟩
  | .hbm, ⟨2, _⟩ => ⟨S10, .f32⟩
  | .hbm, ⟨3, _⟩ => ⟨S10x3, .f32⟩
  | .hbm, ⟨4, _⟩ => ⟨S3, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S_, .f32⟩
  | .hbm, ⟨13, _⟩ => ⟨S4x12, .f32⟩
  | .hbm, ⟨14, _⟩ => ⟨S_, .i32⟩
  | .hbm, ⟨15, _⟩ => ⟨S1, .i32⟩
  | .hbm, ⟨16, _⟩ => ⟨S4x12, .f32⟩
  | .hbm, ⟨17, _⟩ => ⟨S_, .f32⟩
  | .hbm, ⟨18, _⟩ => ⟨S12x3, .f32⟩
  | .hbm, ⟨19, _⟩ => ⟨S_, .i32⟩
  | .hbm, ⟨20, _⟩ => ⟨S1, .i32⟩
  | .hbm, ⟨21, _⟩ => ⟨S12x3, .f32⟩
  | .hbm, ⟨22, _⟩ => ⟨S32x1x32x1, .f32⟩
  | .hbm, ⟨23, _⟩ => ⟨S1x4x1x12, .f32⟩
  | .hbm, ⟨24, _⟩ => ⟨S32x4x32x12, .f32⟩
  | .hbm, ⟨25, _⟩ => ⟨S32x4x32x12, .f32⟩
  | .hbm, ⟨26, _⟩ => ⟨S32x4x32x12, .f32⟩
  | .hbm, ⟨27, _⟩ => ⟨S128x384, .f32⟩
  | .hbm, ⟨28, _⟩ => ⟨S32x1x32x1, .f32⟩
  | .hbm, ⟨29, _⟩ => ⟨S1x12x1x3, .f32⟩
  | .hbm, ⟨30, _⟩ => ⟨S32x12x32x3, .f32⟩
  | .hbm, ⟨31, _⟩ => ⟨S32x12x32x3, .f32⟩
  | .hbm, ⟨32, _⟩ => ⟨S32x12x32x3, .f32⟩
  | .hbm, ⟨33, _⟩ => ⟨S384x96, .f32⟩
  | .hbm, ⟨34, _⟩ => ⟨S_, .i32⟩
  | .hbm, ⟨35, _⟩ => ⟨S_, .f32⟩
  | .hbm, ⟨36, _⟩ => ⟨S12, .f32⟩
  | .hbm, ⟨37, _⟩ => ⟨S1x12, .f32⟩
  | .hbm, ⟨38, _⟩ => ⟨S32x12, .f32⟩
  | .hbm, ⟨39, _⟩ => ⟨S384, .f32⟩
  | .hbm, ⟨40, _⟩ => ⟨S1x384, .f32⟩
  | .hbm, ⟨41, _⟩ => ⟨S1x3, .f32⟩
  | .hbm, ⟨42, _⟩ => ⟨S32x3, .f32⟩
  | .hbm, ⟨43, _⟩ => ⟨S96, .f32⟩
  | .hbm, ⟨44, _⟩ => ⟨S1x96, .f32⟩
  | .hbm, ⟨45, _⟩ => ⟨S65536x128, .f32⟩
  | .hbm, ⟨46, _⟩ => ⟨S65536x96, .f32⟩
  | .hbm, ⟨47, _⟩ => ⟨S6291456, .f32⟩
  | .local _ .vmem, ⟨0, _⟩ => ⟨S512x128, .f32⟩
  | .local _ .vmem, ⟨1, _⟩ => ⟨S512x128, .f32⟩
  | .local _ .vmem, ⟨2, _⟩ => ⟨S128x384, .f32⟩
  | .local _ .vmem, ⟨3, _⟩ => ⟨S1x384, .f32⟩
  | .local _ .vmem, ⟨4, _⟩ => ⟨S384x96, .f32⟩
  | .local _ .vmem, ⟨5, _⟩ => ⟨S1x96, .f32⟩
  | .local _ .vmem, ⟨6, _⟩ => ⟨S512x96, .f32⟩
  | .local _ .vmem, ⟨7, _⟩ => ⟨S512x96, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_c_3 : Ref sig .tc := ⟨.hbm, 34, rfl⟩
abbrev main_call2_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x32 : S_.BroadcastsInDim S32x32 (![] : Fin 0 → Fin S32x32.rank)
  bcast_S_S4x12 : S_.BroadcastsInDim S4x12 (![] : Fin 0 → Fin S4x12.rank)
  bcast_S_S1 : S_.BroadcastsInDim S1 (![] : Fin 0 → Fin S1.rank)
  bcast_S_S12x3 : S_.BroadcastsInDim S12x3 (![] : Fin 0 → Fin S12x3.rank)
  bcast_S32x32_S32x1x32x1_0_2 : S32x32.BroadcastsInDim S32x1x32x1 (![0, 2] : Fin 2 → Fin S32x1x32x1.rank)
  bcast_S4x12_S1x4x1x12_1_3 : S4x12.BroadcastsInDim S1x4x1x12 (![1, 3] : Fin 2 → Fin S1x4x1x12.rank)
  bcast_S32x1x32x1_S32x4x32x12_0_1_2_3 : S32x1x32x1.BroadcastsInDim S32x4x32x12 (![0, 1, 2, 3] : Fin 4 → Fin S32x4x32x12.rank)
  bcast_S1x4x1x12_S32x4x32x12_0_1_2_3 : S1x4x1x12.BroadcastsInDim S32x4x32x12 (![0, 1, 2, 3] : Fin 4 → Fin S32x4x32x12.rank)
  shapeCasts_S32x4x32x12_S128x384 : S32x4x32x12.ShapeCasts S128x384
  bcast_S12x3_S1x12x1x3_1_3 : S12x3.BroadcastsInDim S1x12x1x3 (![1, 3] : Fin 2 → Fin S1x12x1x3.rank)
  bcast_S32x1x32x1_S32x12x32x3_0_1_2_3 : S32x1x32x1.BroadcastsInDim S32x12x32x3 (![0, 1, 2, 3] : Fin 4 → Fin S32x12x32x3.rank)
  bcast_S1x12x1x3_S32x12x32x3_0_1_2_3 : S1x12x1x3.BroadcastsInDim S32x12x32x3 (![0, 1, 2, 3] : Fin 4 → Fin S32x12x32x3.rank)
  shapeCasts_S32x12x32x3_S384x96 : S32x12x32x3.ShapeCasts S384x96
  pads_S10_S12_020 : S10.Pads (![0] : Fin 1 → Nat) ![2] ![0] S12
  h_S_ : 0 < S_.numel
  shapeCasts_S12_S1x12 : S12.ShapeCasts S1x12
  bcast_S1x12_S32x12_0_1 : S1x12.BroadcastsInDim S32x12 (![0, 1] : Fin 2 → Fin S32x12.rank)
  shapeCasts_S32x12_S384 : S32x12.ShapeCasts S384
  shapeCasts_S384_S1x384 : S384.ShapeCasts S1x384
  shapeCasts_S3_S1x3 : S3.ShapeCasts S1x3
  bcast_S1x3_S32x3_0_1 : S1x3.BroadcastsInDim S32x3 (![0, 1] : Fin 2 → Fin S32x3.rank)
  shapeCasts_S32x3_S96 : S32x3.ShapeCasts S96
  shapeCasts_S96_S1x96 : S96.ShapeCasts S1x96
  shapeCasts_S2097152x4_S65536x128 : S2097152x4.ShapeCasts S65536x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S384x96_S384x96_0_0 : ∀ a, (![0, 0] : Fin 2 → Nat) a + S384x96.size a ≤ S384x96.size a
  h_S384x96 : 0 < S384x96.numel
  shapeCasts_S384x96_S384x96 : S384x96.ShapeCasts S384x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S512x96 : S1x96.Broadcasts S512x96
  inb_S512x96_S512x96_0_0 : ∀ a, (![0, 0] : Fin 2 → Nat) a + S512x96.size a ≤ S512x96.size a
  h_S512x96 : 0 < S512x96.numel
  shapeCasts_S65536x96_S6291456 : S65536x96.ShapeCasts S6291456
  scatter_S4x12_S1_S4x10_01_n_1_0_wf : ScatterDims.WF S4x12 S1 S4x10 [0, 1] [] [1] 0
  scatter_S12x3_S1_S10x3_01_n_0_0_wf : ScatterDims.WF S12x3 S1 S10x3 [0, 1] [] [0] 0
  dot_S512x128_S128x384_S512x384_1_0_0_1_n_n_wf : DotDims.WF S512x128 S128x384 S512x384 [1] [0] [0] [1] [] []
  dot_S512x384_S384x96_S512x96_1_0_0_1_n_n_wf : DotDims.WF S512x384 S384x96 S512x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S65536x128.size a
  hwx0_0 : ∀ i : grid0.Coords, EltTy.bits .f32 = 32 ∨ (Rect.block (s := S65536x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x96.size a ≤ S384x96.size a
  hwx0_3 : ∀ i : grid0.Coords, EltTy.bits .f32 = 32 ∨ (Rect.block (s := S384x96) S384x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x96.size a ≤ S65536x96.size a
  hwx0_5 : ∀ i : grid0.Coords, EltTy.bits .f32 = 32 ∨ (Rect.block (s := S65536x96) S512x96.size (cc0_transform_5 i) (hinb0_5 i)).WholeWords (EltTy.packing .f32)

variable [Facts₀]

def scatter_S4x12_S1_S4x10_01_n_1_0 : ScatterDims S4x12 S1 S4x10 where
  updateWindowDims := [0, 1]
  insertedWindowDims := []
  scatterDimsToOperandDims := [1]
  indexVectorDim := 0
  wf := scatter_S4x12_S1_S4x10_01_n_1_0_wf
def scatter_S12x3_S1_S10x3_01_n_0_0 : ScatterDims S12x3 S1 S10x3 where
  updateWindowDims := [0, 1]
  insertedWindowDims := []
  scatterDimsToOperandDims := [0]
  indexVectorDim := 0
  wf := scatter_S12x3_S1_S10x3_01_n_0_0_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S512x384_S384x96_S512x96_1_0_0_1_n_n : DotDims S512x384 S384x96 S512x96 where
  lhsContracting := [1]
  rhsContracting := [0]
  lhsNonContracting := [0]
  rhsNonContracting := [1]
  lhsBatch := []
  rhsBatch := []
  wf := dot_S512x384_S384x96_S512x96_1_0_0_1_n_n_wf

abbrev win0_0 : Pipeline.Window sig grid0 :=
  Pipeline.Window.ofSpec (Memref.whole main_v23) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S384x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S4x10 : Shape := ⟨2, ![4, 10]⟩
abbrev S10 : Shape := ⟨1, ![10]⟩
abbrev S10x3 : Shape := ⟨2, ![10, 3]⟩
abbrev S3 : Shape := ⟨1, ![3]⟩
abbrev S_ : Shape := ⟨0, ![]⟩
abbrev S4x128 : Shape := ⟨2, ![4, 128]⟩
abbrev S1 : Shape := ⟨1, ![1]⟩
abbrev S1x128 : Shape := ⟨2, ![1, 128]⟩
abbrev S1x10 : Shape := ⟨2, ![1, 10]⟩
abbrev S128x8 : Shape := ⟨2, ![128, 8]⟩
abbrev S2 : Shape := ⟨1, ![2]⟩
abbrev S1x8 : Shape := ⟨2, ![1, 8]⟩
abbrev S1x3 : Shape := ⟨2, ![1, 3]⟩
abbrev S2097152x3 : Shape := ⟨2, ![2097152, 3]⟩
abbrev S6291456 : Shape := ⟨1, ![6291456]⟩
abbrev S4096x4 : Shape := ⟨2, ![4096, 4]⟩
abbrev S4096x3 : Shape := ⟨2, ![4096, 3]⟩
abbrev S4096x128 : Shape := ⟨2, ![4096, 128]⟩
abbrev S4096x8 : Shape := ⟨2, ![4096, 8]⟩

abbrev nBuf : Space → Nat
  | .hbm => 32
  | .vmem => 8
  | .smem => 0
  | _ => 0

abbrev bufTy : (tb : Table) → Fin (tcTables nBuf tb) → BufTy
  | .hbm, ⟨0, _⟩ => ⟨S2097152x4, .f32⟩
  | .hbm, ⟨1, _⟩ => ⟨S4x10, .f32⟩
  | .hbm, ⟨2, _⟩ => ⟨S10, .f32⟩
  | .hbm, ⟨3, _⟩ => ⟨S10x3, .f32⟩
  | .hbm, ⟨4, _⟩ => ⟨S3, .f32⟩
  | .hbm, ⟨5, _⟩ => ⟨S_, .f32⟩
  | .hbm, ⟨6, _⟩ => ⟨S4x128, .f32⟩
  | .hbm, ⟨7, _⟩ => ⟨S_, .i32⟩
  | .hbm, ⟨8, _⟩ => ⟨S1, .i32⟩
  | .hbm, ⟨9, _⟩ => ⟨S4x128, .f32⟩
  | .hbm, ⟨10, _⟩ => ⟨S_, .f32⟩
  | .hbm, ⟨11, _⟩ => ⟨S1x128, .f32⟩
  | .hbm, ⟨12, _⟩ => ⟨S1x10, .f32⟩
  | .hbm, ⟨13, _⟩ => ⟨S_, .i32⟩
  | .hbm, ⟨14, _⟩ => ⟨S1, .i32⟩
  | .hbm, ⟨15, _⟩ => ⟨S1x128, .f32⟩
  | .hbm, ⟨16, _⟩ => ⟨S_, .f32⟩
  | .hbm, ⟨17, _⟩ => ⟨S128x8, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S128x8, .f32⟩
  | .hbm, ⟨24, _⟩ => ⟨S_, .f32⟩
  | .hbm, ⟨25, _⟩ => ⟨S1x8, .f32⟩
  | .hbm, ⟨26, _⟩ => ⟨S1x3, .f32⟩
  | .hbm, ⟨27, _⟩ => ⟨S_, .i32⟩
  | .hbm, ⟨28, _⟩ => ⟨S1, .i32⟩
  | .hbm, ⟨29, _⟩ => ⟨S1x8, .f32⟩
  | .hbm, ⟨30, _⟩ => ⟨S2097152x3, .f32⟩
  | .hbm, ⟨31, _⟩ => ⟨S6291456, .f32⟩
  | .local _ .vmem, ⟨0, _⟩ => ⟨S4096x4, .f32⟩
  | .local _ .vmem, ⟨1, _⟩ => ⟨S4096x4, .f32⟩
  | .local _ .vmem, ⟨2, _⟩ => ⟨S4x128, .f32⟩
  | .local _ .vmem, ⟨3, _⟩ => ⟨S1x128, .f32⟩
  | .local _ .vmem, ⟨4, _⟩ => ⟨S128x8, .f32⟩
  | .local _ .vmem, ⟨5, _⟩ => ⟨S1x8, .f32⟩
  | .local _ .vmem, ⟨6, _⟩ => ⟨S4096x3, .f32⟩
  | .local _ .vmem, ⟨7, _⟩ => ⟨S4096x3, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_cst_0 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_cst_2 : Ref sig .tc := ⟨.hbm, 16, rfl⟩
abbrev main_call0_v7 : Ref sig .tc := ⟨.hbm, 17, rfl⟩
abbrev main_call0_c_3 : Ref sig .tc := ⟨.hbm, 18, rfl⟩
abbrev main_call0_v8 : Ref sig .tc := ⟨.hbm, 19, rfl⟩
abbrev main_call0_c_4 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_cst_5 : Ref sig .tc := ⟨.hbm, 24, rfl⟩
abbrev main_call0_v12 : Ref sig .tc := ⟨.hbm, 25, rfl⟩
abbrev main_call0_v13 : Ref sig .tc := ⟨.hbm, 26, rfl⟩
abbrev main_call0_c_6 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4x128 : S_.BroadcastsInDim S4x128 (![] : Fin 0 → Fin S4x128.rank)
  bcast_S_S1 : S_.BroadcastsInDim S1 (![] : Fin 0 → Fin S1.rank)
  bcast_S_S1x128 : S_.BroadcastsInDim S1x128 (![] : Fin 0 → Fin S1x128.rank)
  shapeCasts_S10_S1x10 : S10.ShapeCasts S1x10
  bcast_S_S128x8 : S_.BroadcastsInDim S128x8 (![] : Fin 0 → Fin S128x8.rank)
  concatenates_S1_S1_S2_d0 : Shape.Concatenates [S1, S1] S2 0
  bcast_S_S1x8 : S_.BroadcastsInDim S1x8 (![] : Fin 0 → Fin S1x8.rank)
  shapeCasts_S3_S1x3 : S3.ShapeCasts S1x3
  shapeCasts_S2097152x3_S6291456 : S2097152x3.ShapeCasts S6291456
  inb_S4096x4_S4096x4_0_0 : ∀ a, (![0, 0] : Fin 2 → Nat) a + S4096x4.size a ≤ S4096x4.size a
  h_S4096x4 : 0 < S4096x4.numel
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  slices_S4096x8_o0_0_S4096x3 : S4096x8.Slices ![0, 0] S4096x3
  inb_S4096x3_S4096x3_0_0 : ∀ a, (![0, 0] : Fin 2 → Nat) a + S4096x3.size a ≤ S4096x3.size a
  h_S4096x3 : 0 < S4096x3.numel
  scatter_S4x128_S1_S4x10_01_n_1_0_wf : ScatterDims.WF S4x128 S1 S4x10 [0, 1] [] [1] 0
  scatter_S1x128_S1_S1x10_01_n_1_0_wf : ScatterDims.WF S1x128 S1 S1x10 [0, 1] [] [1] 0
  scatter_S128x8_S2_S10x3_01_n_01_0_wf : ScatterDims.WF S128x8 S2 S10x3 [0, 1] [] [0, 1] 0
  scatter_S1x8_S1_S1x3_01_n_1_0_wf : ScatterDims.WF S1x8 S1 S1x3 [0, 1] [] [1] 0
  dot_S4096x4_S4x128_S4096x128_1_0_0_1_n_n_wf : DotDims.WF S4096x4 S4x128 S4096x128 [1] [0] [0] [1] [] []
  dot_S4096x128_S128x8_S4096x8_1_0_0_1_n_n_wf : DotDims.WF S4096x128 S128x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S2097152x4.size a
  hwx0_0 : ∀ i : grid0.Coords, EltTy.bits .f32 = 32 ∨ (Rect.block (s := S2097152x4) S4096x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S128x8.size a
  hwx0_3 : ∀ i : grid0.Coords, EltTy.bits .f32 = 32 ∨ (Rect.block (s := S128x8) S128x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x3.size a ≤ S2097152x3.size a
  hwx0_5 : ∀ i : grid0.Coords, EltTy.bits .f32 = 32 ∨ (Rect.block (s := S2097152x3) S4096x3.size (cc0_transform_5 i) (hinb0_5 i)).WholeWords (EltTy.packing .f32)

variable [Facts₀]

def scatter_S4x128_S1_S4x10_01_n_1_0 : ScatterDims S4x128 S1 S4x10 where
  updateWindowDims := [0, 1]
  insertedWindowDims := []
  scatterDimsToOperandDims := [1]
  indexVectorDim := 0
  wf := scatter_S4x128_S1_S4x10_01_n_1_0_wf
def scatter_S1x128_S1_S1x10_01_n_1_0 : ScatterDims S1x128 S1 S1x10 where
  updateWindowDims := [0, 1]
  insertedWindowDims := []
  scatterDimsToOperandDims := [1]
  indexVectorDim := 0
  wf := scatter_S1x128_S1_S1x10_01_n_1_0_wf
def scatter_S128x8_S2_S10x3_01_n_01_0 : ScatterDims S128x8 S2 S10x3 where
  updateWindowDims := [0, 1]
  insertedWindowDims := []
  scatterDimsToOperandDims := [0, 1]
  indexVectorDim := 0
  wf := scatter_S128x8_S2_S10x3_01_n_01_0_wf
def scatter_S1x8_S1_S1x3_01_n_1_0 : ScatterDims S1x8 S1 S1x3 where
  updateWindowDims := [0, 1]
  insertedWindowDims := []
  scatterDimsToOperandDims := [1]
  indexVectorDim := 0
  wf := scatter_S1x8_S1_S1x3_01_n_1_0_wf
def dot_S4096x4_S4x128_S4096x128_1_0_0_1_n_n : DotDims S4096x4 S4x128 S4096x128 where
  lhsContracting := [1]
  rhsContracting := [0]
  lhsNonContracting := [0]
  rhsNonContracting := [1]
  lhsBatch := []
  rhsBatch := []
  wf := dot_S4096x4_S4x128_S4096x128_1_0_0_1_n_n_wf
def dot_S4096x128_S128x8_S4096x8_1_0_0_1_n_n : DotDims S4096x128 S128x8 S4096x8 where
  lhsContracting := [1]
  rhsContracting := [0]
  lhsNonContracting := [0]
  rhsNonContracting := [1]
  lhsBatch := []
  rhsBatch := []
  wf := dot_S4096x128_S128x8_S4096x8_1_0_0_1_n_n_wf

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S128x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v15) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v16) S4096x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibScatter.lean ====
/-
  A scatter that overwrites (its body returns the update), read at an index.  The host's scatter is a left fold over
  the update indices in row-major order; each update index j lands at a result index (or nowhere).  If no update
  index lands at i, the result keeps the operand's entry at i.  If exactly one update index j lands at i, the result
  holds the update's entry at j.  When every start index is zero and the window coordinates embed the update's index
  space injectively into the operand's, the two cases are "i is the image of j" and "i is no image".
-/
import Idealize.ShloMosaic.PureOps.ShapeOps
import Idealize.ShloMosaic.Lib.ValueIdx

namespace Cert.LibScatter

open Idealize.ShloMosaic

variable {s si u : Shape} {α : Type} {w : Nat}

/-- One step of the fold: update index number n overwrites the entry it lands at. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_of_ne (d : ScatterDims s si u) (idx : IVec si w) (upd : u.Idx → α) (r : s.Idx → α) (n : Fin u.numel) (i : s.Idx)
    (h : d.resultIdx? (u.rowMajor.symm n) idx ≠ some i) : step d idx upd r n i = r i := by
  unfold step
  generalize d.resultIdx? (u.rowMajor.symm n) idx = o at h ⊢
  cases o with
  | none => rfl
  | some i₀ =>
    show (if i = i₀ then _ else r i) = r i
    rw [if_neg]
    intro e
    exact h (e ▸ rfl)

theorem step_of_eq (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  show (if i = i then _ else r i) = _
  rw [if_pos rfl]

/-- No update index lands at i: the operand's entry stays. -/
theorem scatter_apply_of_not_mem (d : ScatterDims s si u) (x : s.Idx → α) (idx : IVec si w) (upd : u.Idx → α) (i : s.Idx)
    (hno : ∀ j, d.resultIdx? j idx ≠ some i) : Host.scatter d (fun _ b => b) x idx upd i = x i := by
  rw [scatter_eq_foldl]
  generalize List.finRange u.numel = l
  induction l generalizing x with
  | nil => rfl
  | cons n l ih =>
    rw [List.foldl_cons, ih]
    exact step_of_ne d idx upd x n i (hno _)

/-- Exactly one update index j lands at i: the result holds the update's entry at j. -/
theorem scatter_apply_of_mem (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  rw [scatter_eq_foldl]
  have key : ∀ (l : List (Fin u.numel)) (r : s.Idx → α), (r i = upd j ∨ u.rowMajor j ∈ l) →
      l.foldl (step d idx upd) r i = upd j := by
    intro l
    induction l with
    | nil =>
      intro r h
      rcases h with h | h
      · exact h
      · exact absurd h (List.not_mem_nil)
    | cons n l ih =>
      intro r h
      rw [List.foldl_cons]
      apply ih
      by_cases hn : d.resultIdx? (u.rowMajor.symm n) idx = some i
      · left
        rw [step_of_eq d idx upd r n i hn, huniq _ hn]
      · rw [step_of_ne d idx upd r n i hn]
        rcases h with h | h
        · exact Or.inl h
        · rcases List.mem_cons.1 h with h | h
          · exfalso
            apply hn
            rw [← h, Equiv.symm_apply_apply]
            exact hj
          · exact Or.inr h
  exact key _ x (Or.inr (List.mem_finRange _))

/-- With every start index zero and the window coordinates given by an embedding `emb` of the update's index space,
    update index j lands at `emb j`. -/
theorem resultIdx_of_zero_start (d : ScatterDims s si u) (idx : IVec si w) (emb : u.Idx → s.Idx)
    (hstart : ∀ j a, d.start j idx a = 0) (hwin : ∀ j a, d.window j a = (emb j a).val) (j : u.Idx) :
    d.resultIdx? j idx = some (emb j) := by
  unfold ScatterDims.resultIdx?
  have h : ∀ a, 0 ≤ d.start j idx a + d.window j a ∧ d.start j idx a + d.window j a < s.size a := by
    intro a
    rw [hstart, hwin]
    have := (emb j a).isLt
    omega
  rw [dif_pos h]
  congr 1
  funext a
  apply Fin.ext
  show (d.start j idx a + d.window j a).toNat = (emb j a).val
  rw [hstart, hwin]
  omega

/-- The overwriting scatter at zero starts through an injective embedding, at an image index. -/
theorem scatter_zero_start_apply_emb (d : ScatterDims s si u) (x : s.Idx → α) (idx : IVec si w) (upd : u.Idx → α) (emb : u.Idx → s.Idx)
    (hstart : ∀ j a, d.start j idx a = 0) (hwin : ∀ j a, d.window j a = (emb j a).val) (hinj : Function.Injective emb) (j : u.Idx) :
    Host.scatter d (fun _ b => b) x idx upd (emb j) = upd j :=
  scatter_apply_of_mem d x idx upd (emb j) j (resultIdx_of_zero_start d idx emb hstart hwin j) (fun j' h => by
    rw [resultIdx_of_zero_start d idx emb hstart hwin j'] at h
    exact hinj (Option.some.inj h))

/-- The overwriting scatter at zero starts through an embedding, at an index that is no image. -/
theorem scatter_zero_start_apply_off (d : ScatterDims s si u) (x : s.Idx → α) (idx : IVec si w) (upd : u.Idx → α) (emb : u.Idx → s.Idx)
    (hstart : ∀ j a, d.start j idx a = 0) (hwin : ∀ j a, d.window j a = (emb j a).val) (i : s.Idx) (hoff : ∀ j, emb j ≠ i) :
    Host.scatter d (fun _ b => b) x idx upd i = x i :=
  scatter_apply_of_not_mem d x idx upd i (fun j h => by
    rw [resultIdx_of_zero_start d idx emb hstart hwin j] at h
    exact hoff j (Option.some.inj h))

end Cert.LibScatter
-- ==== Proof.KOps.lean ====
/-
  The arrays the kernel program prepares on the host before its one launch, each as a function of the argument
  arrays and read at an index.

  * eye is the 32×32 identity matrix: 1 on the diagonal, 0 off it.
  * w1p is w1 with two zero columns appended (4×12); w2p is w2 with two zero rows appended (12×3).
  * The Kronecker product of eye with a small matrix wp, laid out as one matrix: entry (l, k) is
    eye(l / R, k / C) · wp(l % R, k % C) where wp is R×C.  Off the diagonal blocks it is 0 · wp = 0.
  * The bias rows: b1, padded with two zeros, repeated 32 times; b2 repeated 32 times.
  * x viewed as 65536×128: row r holds samples 32·r … 32·r+31, sample g at columns 4·g … 4·g+3.
-/
import proofs.«150520_g2000108488899871_pallasbulk_1332_4_alg».proof.Proof.Gen.KernelIdeal
import proofs.«150520_g2000108488899871_pallasbulk_1332_4_alg».proof.Proof.LibScatter
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.KVal

open Idealize.ShloMosaic Idealize.ShloMosaic.ValueIdx
open Cert.KernelIdeal Cert.KernelIdeal.Gen

/-! ## The identity matrix -/

/-- The 32×32 identity matrix, as the program builds it: row number compared with column number, as a float. -/
def eye : S32x32.Idx → EReal :=
  uitofp (F := Ideal) .f32 (cmpi .eq (addi (iotaInDim S32x32 32 0) (broadcastInDim S32x32 ![] bcast_S_S32x32 (constantI S_ 32 0#32))) (iotaInDim S32x32 32 1))

theorem eye_apply (g g' : Fin 32) : eye (ix2 g g') = if g = g' then 1 else 0 := by
  show (((IntOp.cmpi .eq (IntOp.addi (BitVec.ofNat 32 g.val) 0#32) (BitVec.ofNat 32 g'.val)).toNat : ℝ) : EReal) = _
  have hk : IntOp.cmpi CmpIPredicate.eq (IntOp.addi (BitVec.ofNat 32 g.val) 0#32) (BitVec.ofNat 32 g'.val)
      = if g = g' then 1#1 else 0#1 := by
    unfold IntOp.cmpi IntOp.addi
    by_cases h : g = g'
    · subst h; simp
    · rw [if_neg h]
      have hne : (BitVec.ofNat 32 g.val + 0#32 == BitVec.ofNat 32 g'.val) = false := by
        simp only [BitVec.add_zero, beq_eq_false_iff_ne, ne_eq]
        intro e
        apply h
        have := congrArg BitVec.toNat e
        simp only [BitVec.toNat_ofNat] at this
        apply Fin.ext; omega
      show BitVec.ofBool (BitVec.ofNat 32 g.val + 0#32 == BitVec.ofNat 32 g'.val) = 0#1
      rw [hne]; rfl
  rw [hk]
  split <;> simp

theorem eye_diag (g : Fin 32) : eye (ix2 g g) = 1 := by rw [eye_apply, if_pos rfl]
theorem eye_off {g g' : Fin 32} (h : g ≠ g') : eye (ix2 g g') = 0 := by rw [eye_apply, if_neg h]

/-! ## The zero-padded weights -/

/-- The scatter's start index: the constant 0. -/
def zidx1 : IVec S1 32 := broadcastInDim S1 ![] bcast_S_S1 (constantI S_ 32 0#32)

/-- w1 with two zero columns appended. -/
def w1p (u : S4x10.Idx → EReal) : S4x12.Idx → EReal :=
  Host.scatter scatter_S4x12_S1_S4x10_01_n_1_0 (fun _ b => b)
    (broadcastInDim S4x12 ![] bcast_S_S4x12 (constant (F := Ideal) S_ .f32 0x00000000#32)) zidx1 u

def emb1 (j : S4x10.Idx) : S4x12.Idx := ix2 (j 0) ⟨(j 1).val, by have : (j 1).val < 10 := (j 1).isLt; omega⟩

theorem hstart1 (j : S4x10.Idx) (a : Fin S4x12.rank) : scatter_S4x12_S1_S4x10_01_n_1_0.start j zidx1 a = 0 := by
  unfold ScatterDims.start
  split
  · rfl
  · rfl

theorem hwin1 (j : S4x10.Idx) (a : Fin S4x12.rank) : scatter_S4x12_S1_S4x10_01_n_1_0.window j a = (emb1 j a).val := by
  match a with
  | ⟨0, _⟩ => rfl
  | ⟨1, _⟩ => rfl

theorem emb1_inj : Function.Injective emb1 := by
  intro j j' h
  funext a
  apply Fin.ext
  match a with
  | ⟨0, _⟩ => exact congrArg (fun i : S4x12.Idx => (i 0).val) h
  | ⟨1, _⟩ => exact congrArg (fun i : S4x12.Idx => (i 1).val) h

theorem w1p_apply_lt (u : S4x10.Idx → EReal) (a : Fin 4) (j : Fin 10) :
    w1p u (ix2 a ⟨j.val, by omega⟩) = u (ix2 a j) :=
  LibScatter.scatter_zero_start_apply_emb _ _ zidx1 u emb1 hstart1 hwin1 emb1_inj (ix2 a j)

theorem w1p_apply_ge (u : S4x10.Idx → EReal) (a : Fin 4) (j : Fin 12) (hj : 10 ≤ j.val) : w1p u (ix2 a j) = 0 := by
  refine (LibScatter.scatter_zero_start_apply_off _ _ zidx1 u emb1 hstart1 hwin1 (ix2 a j) (fun j' e => ?_)).trans ?_
  · have := congrArg (fun i : S4x12.Idx => (i 1).val) e
    have h10 : (j' 1).val < 10 := (j' 1).isLt
    change (j' 1).val = j.val at this
    omega
  · show Ideal.ofBits .f32 0x00000000#32 = 0
    exact Ideal.ofBits_zero_f32

/-- w2 with two zero rows appended. -/
def w2p (u : S10x3.Idx → EReal) : S12x3.Idx → EReal :=
  Host.scatter scatter_S12x3_S1_S10x3_01_n_0_0 (fun _ b => b)
    (broadcastInDim S12x3 ![] bcast_S_S12x3 (constant (F := Ideal) S_ .f32 0x00000000#32)) zidx1 u

def emb2 (j : S10x3.Idx) : S12x3.Idx := ix2 ⟨(j 0).val, by have : (j 0).val < 10 := (j 0).isLt; omega⟩ (j 1)

theorem hstart2 (j : S10x3.Idx) (a : Fin S12x3.rank) : scatter_S12x3_S1_S10x3_01_n_0_0.start j zidx1 a = 0 := by
  unfold ScatterDims.start
  split
  · rfl
  · rfl

theorem hwin2 (j : S10x3.Idx) (a : Fin S12x3.rank) : scatter_S12x3_S1_S10x3_01_n_0_0.window j a = (emb2 j a).val := by
  match a with
  | ⟨0, _⟩ => rfl
  | ⟨1, _⟩ => rfl

theorem emb2_inj : Function.Injective emb2 := by
  intro j j' h
  funext a
  apply Fin.ext
  match a with
  | ⟨0, _⟩ => exact congrArg (fun i : S12x3.Idx => (i 0).val) h
  | ⟨1, _⟩ => exact congrArg (fun i : S12x3.Idx => (i 1).val) h

theorem w2p_apply_lt (u : S10x3.Idx → EReal) (j : Fin 10) (o : Fin 3) :
    w2p u (ix2 ⟨j.val, by omega⟩ o) = u (ix2 j o) :=
  LibScatter.scatter_zero_start_apply_emb _ _ zidx1 u emb2 hstart2 hwin2 emb2_inj (ix2 j o)

theorem w2p_apply_ge (u : S10x3.Idx → EReal) (j : Fin 12) (o : Fin 3) (hj : 10 ≤ j.val) : w2p u (ix2 j o) = 0 := by
  refine (LibScatter.scatter_zero_start_apply_off _ _ zidx1 u emb2 hstart2 hwin2 (ix2 j o) (fun j' e => ?_)).trans ?_
  · have := congrArg (fun i : S12x3.Idx => (i 0).val) e
    have h10 : (j' 0).val < 10 := (j' 0).isLt
    change (j' 0).val = j.val at this
    omega
  · show Ideal.ofBits .f32 0x00000000#32 = 0
    exact Ideal.ofBits_zero_f32

end Cert.KernelIdeal.KVal
end
-- ==== Proof.KLayout.lean ====
/-
  The layout operations of the kernel program's host side, read at an index.

  * The Kronecker product of a 32×32 matrix e with an R×C matrix wp is built as the product of two broadcasts to
    [32, R, 32, C] — e read at (g, g'), wp at (a, j) — reshaped to [32·R, 32·C]: row-major, entry (R·g + a, C·g' + j)
    is e(g, g') · wp(a, j).
  * A bias vector is padded (b1 only), repeated along a new leading axis of extent 32 and flattened to one row:
    entry (0, C·g + j) is the vector's entry j.
  * x reshaped from [2097152, 4] to [65536, 128]: entry (r, 4·g + a) is x(32·r + g, a).
-/
import proofs.«150520_g2000108488899871_pallasbulk_1332_4_alg».proof.Proof.Gen.KernelIdeal
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.KVal

open Idealize.ShloMosaic Idealize.ShloMosaic.ValueIdx
open Cert.KernelIdeal Cert.KernelIdeal.Gen

/-! ## Kronecker products with the 32×32 matrix -/

/-- e ⊗ wp for a 4×12 matrix wp, as the program lays it out (128×384). -/
def kron1 (e : S32x32.Idx → EReal) (wp : S4x12.Idx → EReal) : S128x384.Idx → EReal :=
  shapeCast S128x384
    (mulf (F := Ideal) (φ := .f32)
      (broadcastInDim S32x4x32x12 ![0, 1, 2, 3] bcast_S32x1x32x1_S32x4x32x12_0_1_2_3
        (broadcastInDim S32x1x32x1 ![0, 2] bcast_S32x32_S32x1x32x1_0_2 e))
      (broadcastInDim S32x4x32x12 ![0, 1, 2, 3] bcast_S1x4x1x12_S32x4x32x12_0_1_2_3
        (broadcastInDim S1x4x1x12 ![1, 3] bcast_S4x12_S1x4x1x12_1_3 wp)))
    shapeCasts_S32x4x32x12_S128x384

theorem kron1_apply (e : S32x32.Idx → EReal) (wp : S4x12.Idx → EReal) (g : Fin 32) (a : Fin 4) (g' : Fin 32) (j : Fin 12)
    (l : Fin 128) (k : Fin 384) (hl : l.val = 4 * g.val + a.val) (hk : k.val = 12 * g'.val + j.val) :
    kron1 e wp (ix2 l k) = e (ix2 g g') * wp (ix2 a j) := by
  unfold kron1
  refine (shapeCast_apply _ _ (ix2 l k) (ix4 g a g' j) ?_).trans ?_
  · rw [Shape.rowMajor_val_four, Shape.rowMajor_val_two]
    show ((g.val * 4 + a.val) * 32 + g'.val) * 12 + j.val = l.val * 384 + k.val
    omega
  · show _ * _ = _
    refine congrArg₂ (· * ·) ?_ ?_
    · refine (broadcastInDim_apply _ _ _ (ix4 g a g' j) (ix4 g (0 : Fin 1) g' (0 : Fin 1)) (fun b => ?_)).trans ?_
      · match b with
        | ⟨0, _⟩ => rfl
        | ⟨1, _⟩ => rfl
        | ⟨2, _⟩ => rfl
        | ⟨3, _⟩ => rfl
      · refine broadcastInDim_apply _ _ e _ (ix2 g g') (fun b => ?_)
        match b with
        | ⟨0, _⟩ => rfl
        | ⟨1, _⟩ => rfl
    · refine (broadcastInDim_apply _ _ _ (ix4 g a g' j) (ix4 (0 : Fin 1) a (0 : Fin 1) j) (fun b => ?_)).trans ?_
      · match b with
        | ⟨0, _⟩ => rfl
        | ⟨1, _⟩ => rfl
        | ⟨2, _⟩ => rfl
        | ⟨3, _⟩ => rfl
      · refine broadcastInDim_apply _ _ wp _ (ix2 a j) (fun b => ?_)
        match b with
        | ⟨0, _⟩ => rfl
        | ⟨1, _⟩ => rfl

/-- e ⊗ wp for a 12×3 matrix wp, as the program lays it out (384×96). -/
def kron2 (e : S32x32.Idx → EReal) (wp : S12x3.Idx → EReal) : S384x96.Idx → EReal :=
  shapeCast S384x96
    (mulf (F := Ideal) (φ := .f32)
      (broadcastInDim S32x12x32x3 ![0, 1, 2, 3] bcast_S32x1x32x1_S32x12x32x3_0_1_2_3
        (broadcastInDim S32x1x32x1 ![0, 2] bcast_S32x32_S32x1x32x1_0_2 e))
      (broadcastInDim S32x12x32x3 ![0, 1, 2, 3] bcast_S1x12x1x3_S32x12x32x3_0_1_2_3
        (broadcastInDim S1x12x1x3 ![1, 3] bcast_S12x3_S1x12x1x3_1_3 wp)))
    shapeCasts_S32x12x32x3_S384x96

theorem kron2_apply (e : S32x32.Idx → EReal) (wp : S12x3.Idx → EReal) (g : Fin 32) (j : Fin 12) (g' : Fin 32) (o : Fin 3)
    (k : Fin 384) (q : Fin 96) (hk : k.val = 12 * g.val + j.val) (hq : q.val = 3 * g'.val + o.val) :
    kron2 e wp (ix2 k q) = e (ix2 g g') * wp (ix2 j o) := by
  unfold kron2
  refine (shapeCast_apply _ _ (ix2 k q) (ix4 g j g' o) ?_).trans ?_
  · rw [Shape.rowMajor_val_four, Shape.rowMajor_val_two]
    show ((g.val * 12 + j.val) * 32 + g'.val) * 3 + o.val = k.val * 96 + q.val
    omega
  · show _ * _ = _
    refine congrArg₂ (· * ·) ?_ ?_
    · refine (broadcastInDim_apply _ _ _ (ix4 g j g' o) (ix4 g (0 : Fin 1) g' (0 : Fin 1)) (fun b => ?_)).trans ?_
      · match b with
        | ⟨0, _⟩ => rfl
        | ⟨1, _⟩ => rfl
        | ⟨2, _⟩ => rfl
        | ⟨3, _⟩ => rfl
      · refine broadcastInDim_apply _ _ e _ (ix2 g g') (fun b => ?_)
        match b with
        | ⟨0, _⟩ => rfl
        | ⟨1, _⟩ => rfl
    · refine (broadcastInDim_apply _ _ _ (ix4 g j g' o) (ix4 (0 : Fin 1) j (0 : Fin 1) o) (fun b => ?_)).trans ?_
      · match b with
        | ⟨0, _⟩ => rfl
        | ⟨1, _⟩ => rfl
        | ⟨2, _⟩ => rfl
        | ⟨3, _⟩ => rfl
      · refine broadcastInDim_apply _ _ wp _ (ix2 j o) (fun b => ?_)
        match b with
        | ⟨0, _⟩ => rfl
        | ⟨1, _⟩ => rfl

/-! ## The bias rows -/

/-- b1, padded with two zeros, repeated 32 times, as one row of 384. -/
def b1row (b1 : S10.Idx → EReal) : S1x384.Idx → EReal :=
  shapeCast S1x384
    (shapeCast S384
      (broadcastInDim S32x12 ![0, 1] bcast_S1x12_S32x12_0_1
        (shapeCast S1x12
          (pad S12 ![0] ![2] ![0] b1 (sitofp (F := Ideal) .f32 (constantI S_ 32 0#32)) pads_S10_S12_020 h_S_)
          shapeCasts_S12_S1x12))
      shapeCasts_S32x12_S384)
    shapeCasts_S384_S1x384

theorem pad12_apply_lt (x : S10.Idx → EReal) (v : S_.Idx → EReal) (j : Fin 10) (j' : Fin 12) (hj : j'.val = j.val) :
    pad S12 ![0] ![2] ![0] x v pads_S10_S12_020 h_S_ (ix1 j') = x (ix1 j) := by
  unfold pad
  split
  · refine congrArg x (funext fun a => Fin.ext ?_)
    match a with
    | ⟨0, _⟩ =>
      show (j'.val - 0) / (0 + 1) = j.val
      simp [hj]
  · rename_i hnot
    exfalso
    apply hnot
    intro a
    match a with
    | ⟨0, _⟩ =>
      refine ⟨Nat.zero_le _, ?_, ?_⟩
      · show (j'.val - 0) % (0 + 1) = 0
        exact Nat.mod_one _
      · show (j'.val - 0) / (0 + 1) < 10
        simp [hj]

theorem b1row_apply (b1 : S10.Idx → EReal) (z : Fin 1) (k : Fin 384) (g : Fin 32) (j : Fin 10) (hk : k.val = 12 * g.val + j.val) :
    b1row b1 (ix2 z k) = b1 (ix1 j) := by
  unfold b1row
  have hz : z.val = 0 := by omega
  refine (shapeCast_apply _ _ (ix2 z k) (ix1 k) ?_).trans ?_
  · rw [Shape.rowMajor_val_one, Shape.rowMajor_val_two]
    show k.val = z.val * 384 + k.val
    omega
  refine (shapeCast_apply _ _ (ix1 k) (ix2 g (⟨j.val, by omega⟩ : Fin 12)) ?_).trans ?_
  · rw [Shape.rowMajor_val_one, Shape.rowMajor_val_two]
    show g.val * 12 + j.val = k.val
    omega
  refine (broadcastInDim_apply _ _ _ (ix2 g (⟨j.val, by omega⟩ : Fin 12)) (ix2 (0 : Fin 1) (⟨j.val, by omega⟩ : Fin 12)) (fun b => ?_)).trans ?_
  · match b with
    | ⟨0, _⟩ => rfl
    | ⟨1, _⟩ => rfl
  refine (shapeCast_apply _ _ (ix2 (0 : Fin 1) (⟨j.val, by omega⟩ : Fin 12)) (ix1 (⟨j.val, by omega⟩ : Fin 12)) ?_).trans ?_
  · rw [Shape.rowMajor_val_one, Shape.rowMajor_val_two]
    show j.val = 0 * 12 + j.val
    omega
  exact pad12_apply_lt b1 _ j _ rfl

/-- b2 repeated 32 times, as one row of 96. -/
def b2row (b2 : S3.Idx → EReal) : S1x96.Idx → EReal :=
  shapeCast S1x96
    (shapeCast S96
      (broadcastInDim S32x3 ![0, 1] bcast_S1x3_S32x3_0_1 (shapeCast S1x3 b2 shapeCasts_S3_S1x3))
      shapeCasts_S32x3_S96)
    shapeCasts_S96_S1x96

theorem b2row_apply (b2 : S3.Idx → EReal) (z : Fin 1) (q : Fin 96) (g : Fin 32) (o : Fin 3) (hq : q.val = 3 * g.val + o.val) :
    b2row b2 (ix2 z q) = b2 (ix1 o) := by
  unfold b2row
  have hz : z.val = 0 := by omega
  refine (shapeCast_apply _ _ (ix2 z q) (ix1 q) ?_).trans ?_
  · rw [Shape.rowMajor_val_one, Shape.rowMajor_val_two]
    show q.val = z.val * 96 + q.val
    omega
  refine (shapeCast_apply _ _ (ix1 q) (ix2 g o) ?_).trans ?_
  · rw [Shape.rowMajor_val_one, Shape.rowMajor_val_two]
    show g.val * 3 + o.val = q.val
    omega
  refine (broadcastInDim_apply _ _ _ (ix2 g o) (ix2 (0 : Fin 1) o) (fun b => ?_)).trans ?_
  · match b with
    | ⟨0, _⟩ => rfl
    | ⟨1, _⟩ => rfl
  refine shapeCast_apply _ _ (ix2 (0 : Fin 1) o) (ix1 o) ?_
  rw [Shape.rowMajor_val_one, Shape.rowMajor_val_two]
  show o.val = 0 * 3 + o.val
  omega

/-! ## x as rows of 32 samples -/

def xrows (x : S2097152x4.Idx → EReal) : S65536x128.Idx → EReal :=
  shapeCast S65536x128 x shapeCasts_S2097152x4_S65536x128

theorem xrows_apply (x : S2097152x4.Idx → EReal) (r : Fin 65536) (l : Fin 128) (g : Fin 32) (a : Fin 4) (s : Fin 2097152)
    (hl : l.val = 4 * g.val + a.val) (hs : s.val = 32 * r.val + g.val) :
    xrows x (ix2 r l) = x (ix2 s a) := by
  unfold xrows
  refine shapeCast_apply _ _ (ix2 r l) (ix2 s a) ?_
  rw [Shape.rowMajor_val_two, Shape.rowMajor_val_two]
  show s.val * 4 + a.val = r.val * 128 + l.val
  omega

end Cert.KernelIdeal.KVal
end
-- ==== Proof.KHostA.lean ====
/-
  The two block-diagonal weight matrices as the kernel's launch finds them: the host operations before the launch,
  composed, are the Kronecker products of the identity with the zero-padded weights.
-/
import proofs.«150520_g2000108488899871_pallasbulk_1332_4_alg».proof.Proof.Gen.KernelIdeal.Frame
import proofs.«150520_g2000108488899871_pallasbulk_1332_4_alg».proof.Proof.KOps
import proofs.«150520_g2000108488899871_pallasbulk_1332_4_alg».proof.Proof.KLayout
import Idealize.ShloMosaic.Lib.StableHlo.Run
set_option maxRecDepth 16384

noncomputable section

open scoped BigOperators

namespace Cert.KernelIdeal.KVal

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ)

set_option maxHeartbeats 2000000 in
/-- The first layer's block-diagonal weights. -/
theorem V_w1b (c : Dev nD) : (V (F := Ideal) m c main_v12 : S128x384.Idx → EReal) = kron1 eye (w1p (m ((c : Thread nD τ).loc main_arg1))) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  unfold kron1 eye w1p zidx1
  rfl
set_option maxHeartbeats 2000000 in
/-- The second layer's block-diagonal weights. -/
theorem V_w2b (c : Dev nD) : (V (F := Ideal) m c main_v13 : S384x96.Idx → EReal) = kron2 eye (w2p (m ((c : Thread nD τ).loc main_arg3))) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  unfold kron2 eye w2p zidx1
  rfl

end Cert.KernelIdeal.KVal
end
-- ==== Proof.KHostB.lean ====
/-
  The bias rows and the row view of x as the kernel's launch finds them: the host operations before the launch, composed.
-/
import proofs.«150520_g2000108488899871_pallasbulk_1332_4_alg».proof.Proof.Gen.KernelIdeal.Frame
import proofs.«150520_g2000108488899871_pallasbulk_1332_4_alg».proof.Proof.KOps
import proofs.«150520_g2000108488899871_pallasbulk_1332_4_alg».proof.Proof.KLayout
import Idealize.ShloMosaic.Lib.StableHlo.Run
set_option maxRecDepth 16384

noncomputable section

open scoped BigOperators

namespace Cert.KernelIdeal.KVal

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ)

/-- The first layer's bias row. -/
theorem V_b1b (c : Dev nD) : (V (F := Ideal) m c main_v18 : S1x384.Idx → EReal) = b1row (m ((c : Thread nD τ).loc main_arg2)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl
/-- The second layer's bias row. -/
theorem V_b2b (c : Dev nD) : (V (F := Ideal) m c main_v22 : S1x96.Idx → EReal) = b2row (m ((c : Thread nD τ).loc main_arg4)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl
/-- x as rows of 32 samples. -/
theorem V_xrows (c : Dev nD) : (V (F := Ideal) m c main_v23 : S65536x128.Idx → EReal) = xrows (m ((c : Thread nD τ).loc main_arg0)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

end Cert.KernelIdeal.KVal
end
-- ==== Proof.Spec.lean ====
/-
  The function both programs compute, on extended reals.  For a sample s (a row of x) and an output unit o,

      mlp s o = σ( Σ_{j<10} σ( Σ_{a<4} x(s,a) · w1(a,j) + b1(j) ) · w2(j,o) + b2(o) ),

  with σ the logistic function; the flat result holds mlp s o at position 3·s + o.

  Both programs reach this value through sums that run over more positions than the ten hidden units and the four
  inputs (zero-padded weights, or block-diagonal weights that place 32 samples side by side in one row).  Every extra
  position contributes a product with a zero factor.  On the extended reals 0 · v = v · 0 = 0 for every v, infinite
  or not, and addition is commutative and associative, so dropping those terms needs no finiteness: it is the lemma
  `sum_eq_sum_of_support` below.
-/
import Idealize.ShloMosaic.PureOps.Ideal
import Idealize.ShloMosaic.Lib.ValueIdx

noncomputable section

open scoped BigOperators

namespace Cert.Spec

open Idealize.ShloMosaic Idealize.ShloMosaic.ValueIdx

/-- The logistic function on the extended reals, as the float interface names it at the exact instance. -/
abbrev sg (v : EReal) : EReal := FloatOps.logistic (F := Ideal) (φ := FTy.f32) v

/-- One hidden unit of one sample. -/
def hidden (x : (⟨2, ![2097152, 4]⟩ : Shape).Idx → EReal) (w1 : (⟨2, ![4, 10]⟩ : Shape).Idx → EReal)
    (b1 : (⟨1, ![10]⟩ : Shape).Idx → EReal) (s : Fin 2097152) (j : Fin 10) : EReal :=
  sg (∑ a : Fin 4, x (ix2 s a) * w1 (ix2 a j) + b1 (ix1 j))

/-- One output unit of one sample. -/
def mlp (x : (⟨2, ![2097152, 4]⟩ : Shape).Idx → EReal) (w1 : (⟨2, ![4, 10]⟩ : Shape).Idx → EReal)
    (b1 : (⟨1, ![10]⟩ : Shape).Idx → EReal) (w2 : (⟨2, ![10, 3]⟩ : Shape).Idx → EReal)
    (b2 : (⟨1, ![3]⟩ : Shape).Idx → EReal) (s : Fin 2097152) (o : Fin 3) : EReal :=
  sg (∑ j : Fin 10, hidden x w1 b1 s j * w2 (ix2 j o) + b2 (ix1 o))

/-- The flat result: position 3·s + o holds output unit o of sample s. -/
def G (x : (⟨2, ![2097152, 4]⟩ : Shape).Idx → EReal) (w1 : (⟨2, ![4, 10]⟩ : Shape).Idx → EReal)
    (b1 : (⟨1, ![10]⟩ : Shape).Idx → EReal) (w2 : (⟨2, ![10, 3]⟩ : Shape).Idx → EReal)
    (b2 : (⟨1, ![3]⟩ : Shape).Idx → EReal) : (⟨1, ![6291456]⟩ : Shape).Idx → EReal :=
  fun i => mlp x w1 b1 w2 b2 ⟨(i 0).val / 3, by have h : (i 0).val < 6291456 := (i 0).isLt; omega⟩ ⟨(i 0).val % 3, Nat.mod_lt _ (by decide)⟩

/-- A sum whose terms vanish off the range of an injective map is the sum over the map's domain. -/
theorem sum_eq_sum_of_support {M : Type*} [AddCommMonoid M] {ι κ : Type*} [Fintype ι] [Fintype κ] [DecidableEq ι]
    (e : κ → ι) (he : Function.Injective e) (F : ι → M) (h0 : ∀ l, (∀ a, e a ≠ l) → F l = 0) :
    ∑ l, F l = ∑ a, F (e a) := by
  rw [← Finset.sum_image (s := Finset.univ) (g := e) (f := F) (fun a _ b _ h => he h)]
  symm
  apply Finset.sum_subset (Finset.subset_univ _)
  intro l _ hl
  apply h0
  intro a ha
  exact hl (Finset.mem_image.2 ⟨a, Finset.mem_univ _, ha⟩)

end Cert.Spec

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.KPay.lean ====
/-
  What the kernel's body stores, as a function of its five input blocks and read at an index.  With x the 512×128
  block of sample rows, W1 (128×384) and W2 (384×96) the two weight matrices and c1 (1×384), c2 (1×96) the bias rows,
  the stored block is

      σ( σ( x · W1 + c1 ) · W2 + c2 ),

  each matrix product a plain sum over the contracted axis (the accumulators start at zero), the bias rows repeated
  down the 512 rows, σ applied entry by entry.
-/
import proofs.«150520_g2000108488899871_pallasbulk_1332_4_alg».proof.Proof.Gen.KernelIdeal.Skeleton
import proofs.«150520_g2000108488899871_pallasbulk_1332_4_alg».proof.Proof.Spec
import proofs.«150520_g2000108488899871_pallasbulk_1332_4_alg».proof.Proof.LibMatmul
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.KVal

open Idealize.ShloMosaic Idealize.ShloMosaic.ValueIdx
open Cert.KernelIdeal Cert.KernelIdeal.Gen

/-- A 1×384 row repeated down 512 rows, at an index. -/
theorem bcast384_apply (x2 : S1x384.Idx → EReal) (p : Fin 512) (k : Fin 384) :
    broadcastTo S512x384 x2 broadcasts_S1x384_S512x384 (ix2 p k) = x2 (ix2 (0 : Fin 1) k) :=
  broadcastTo_apply x2 _ (ix2 p k) (ix2 (0 : Fin 1) k) (fun a => by
    match a with
    | ⟨0, _⟩ => rfl
    | ⟨1, _⟩ => rfl)

/-- A 1×96 row repeated down 512 rows, at an index. -/
theorem bcast96_apply (x4 : S1x96.Idx → EReal) (p : Fin 512) (q : Fin 96) :
    broadcastTo S512x96 x4 broadcasts_S1x96_S512x96 (ix2 p q) = x4 (ix2 (0 : Fin 1) q) :=
  broadcastTo_apply x4 _ (ix2 p q) (ix2 (0 : Fin 1) q) (fun a => by
    match a with
    | ⟨0, _⟩ => rfl
    | ⟨1, _⟩ => rfl)

/-- The stored block as two matrix products, two bias additions and two logistics. -/
theorem pay_eq (x0 : Vec Ideal S512x128 .f32) (x1 : Vec Ideal S128x384 .f32) (x2 : Vec Ideal S1x384 .f32)
    (x3 : Vec Ideal S384x96 .f32) (x4 : Vec Ideal S1x96 .f32) :
    k0_pay1 (F := Ideal) x0 x1 x2 x3 x4
      = logistic (F := Ideal) (φ := .f32) (addf (F := Ideal) (φ := .f32)
          (LibMatmul.MM (logistic (F := Ideal) (φ := .f32) (addf (F := Ideal) (φ := .f32) (LibMatmul.MM x0 x1)
            (broadcastTo S512x384 x2 broadcasts_S1x384_S512x384))) x3)
          (broadcastTo S512x96 x4 broadcasts_S1x96_S512x96)) := by
  unfold k0_pay1
  simp only [shapeCast_self, matmul]
  rw [LibMatmul.matmul_zero_eq dot_S512x128_S128x384_S512x384_1_0_0_1_n_n rfl rfl rfl rfl rfl rfl,
    LibMatmul.matmul_zero_eq dot_S512x384_S384x96_S512x96_1_0_0_1_n_n rfl rfl rfl rfl rfl rfl]

/-- The stored block at row p, column q. -/
theorem pay_apply (x0 : Vec Ideal S512x128 .f32) (x1 : Vec Ideal S128x384 .f32) (x2 : Vec Ideal S1x384 .f32)
    (x3 : Vec Ideal S384x96 .f32) (x4 : Vec Ideal S1x96 .f32) (p : Fin 512) (q : Fin 96) :
    k0_pay1 (F := Ideal) x0 x1 x2 x3 x4 (ix2 p q)
      = Spec.sg (∑ k : Fin 384, Spec.sg (∑ l : Fin 128, x0 (ix2 p l) * x1 (ix2 l k) + x2 (ix2 (0 : Fin 1) k)) * x3 (ix2 k q)
          + x4 (ix2 (0 : Fin 1) q)) := by
  rw [pay_eq]
  show Spec.sg (LibMatmul.MM _ x3 (ix2 p q) + broadcastTo S512x96 x4 broadcasts_S1x96_S512x96 (ix2 p q)) = _
  rw [LibMatmul.MM_apply, bcast96_apply]
  refine congrArg Spec.sg (congrArg (· + x4 (ix2 (0 : Fin 1) q)) (Finset.sum_congr rfl fun k _ => ?_))
  refine congrArg (· * x3 (ix2 k q)) ?_
  show Spec.sg (LibMatmul.MM x0 x1 (ix2 p k) + broadcastTo S512x384 x2 broadcasts_S1x384_S512x384 (ix2 p k)) = _
  rw [LibMatmul.MM_apply, bcast384_apply]

end Cert.KernelIdeal.KVal
end
-- ==== Proof.KMath.lean ====
/-
  The algebra of the kernel side.  A row r of the 65536×128 view X of x holds 32 samples, sample g at columns
  4·g … 4·g+3.  The first weight matrix W1 (128×384) has, for each g, the 4×12 block of w1 (two zero columns appended)
  at rows 4·g … and columns 12·g …, and zeros elsewhere; the second, W2 (384×96), has the 12×3 block of w2 (two zero
  rows appended) at rows 12·g … and columns 3·g ….  Then at row r and column q = 3·g + o

      σ( Σ_k σ( Σ_l X(r,l) · W1(l,k) + C1(k) ) · W2(k,q) + C2(q) )  =  mlp (32·r + g) o :

  in the outer sum only k = 12·g + j with j < 10 meets a nonzero entry of W2, and for such k in the inner sum only
  l = 4·g + a meets a nonzero entry of W1; every other term is a product with zero.
-/
import proofs.«150520_g2000108488899871_pallasbulk_1332_4_alg».proof.Proof.Spec
set_option maxRecDepth 16384

noncomputable section

open scoped BigOperators

namespace Cert.KMath

open Idealize.ShloMosaic Idealize.ShloMosaic.ValueIdx Cert.Spec

variable (x : (⟨2, ![2097152, 4]⟩ : Shape).Idx → EReal) (w1 : (⟨2, ![4, 10]⟩ : Shape).Idx → EReal)
  (b1 : (⟨1, ![10]⟩ : Shape).Idx → EReal) (w2 : (⟨2, ![10, 3]⟩ : Shape).Idx → EReal) (b2 : (⟨1, ![3]⟩ : Shape).Idx → EReal)
  (X : (⟨2, ![65536, 128]⟩ : Shape).Idx → EReal) (W1 : (⟨2, ![128, 384]⟩ : Shape).Idx → EReal)
  (C1 : (⟨2, ![1, 384]⟩ : Shape).Idx → EReal) (W2 : (⟨2, ![384, 96]⟩ : Shape).Idx → EReal)
  (C2 : (⟨2, ![1, 96]⟩ : Shape).Idx → EReal)

theorem kernel_entry
    (hX : ∀ (r : Fin 65536) (l : Fin 128) (g : Fin 32) (a : Fin 4) (s : Fin 2097152),
      l.val = 4 * g.val + a.val → s.val = 32 * r.val + g.val → X (ix2 r l) = x (ix2 s a))
    (hW1z : ∀ (l : Fin 128) (k : Fin 384), l.val / 4 ≠ k.val / 12 → W1 (ix2 l k) = 0)
    (hW1 : ∀ (g : Fin 32) (a : Fin 4) (j : Fin 10) (l : Fin 128) (k : Fin 384),
      l.val = 4 * g.val + a.val → k.val = 12 * g.val + j.val → W1 (ix2 l k) = w1 (ix2 a j))
    (hC1 : ∀ (z : Fin 1) (k : Fin 384) (g : Fin 32) (j : Fin 10), k.val = 12 * g.val + j.val → C1 (ix2 z k) = b1 (ix1 j))
    (hW2z : ∀ (k : Fin 384) (q : Fin 96), (k.val / 12 ≠ q.val / 3 ∨ 10 ≤ k.val % 12) → W2 (ix2 k q) = 0)
    (hW2 : ∀ (g : Fin 32) (j : Fin 10) (o : Fin 3) (k : Fin 384) (q : Fin 96),
      k.val = 12 * g.val + j.val → q.val = 3 * g.val + o.val → W2 (ix2 k q) = w2 (ix2 j o))
    (hC2 : ∀ (z : Fin 1) (q : Fin 96) (g : Fin 32) (o : Fin 3), q.val = 3 * g.val + o.val → C2 (ix2 z q) = b2 (ix1 o))
    (r : Fin 65536) (q : Fin 96) (g : Fin 32) (o : Fin 3) (s : Fin 2097152)
    (hq : q.val = 3 * g.val + o.val) (hs : s.val = 32 * r.val + g.val) :
    sg (∑ k : Fin 384, sg (∑ l : Fin 128, X (ix2 r l) * W1 (ix2 l k) + C1 (ix2 (0 : Fin 1) k)) * W2 (ix2 k q)
        + C2 (ix2 (0 : Fin 1) q))
      = mlp x w1 b1 w2 b2 s o := by
  unfold mlp
  rw [hC2 0 q g o hq]
  refine congrArg sg (congrArg (· + b2 (ix1 o)) ?_)
  -- the outer sum runs over the ten hidden units of sample g
  let e : Fin 10 → Fin 384 := fun j => ⟨12 * g.val + j.val, by have := g.isLt; have := j.isLt; omega⟩
  have he : Function.Injective e := by
    intro j j' h
    have := congrArg Fin.val h
    simp only [e] at this
    exact Fin.ext (by omega)
  rw [sum_eq_sum_of_support e he]
  · refine Finset.sum_congr rfl fun j _ => ?_
    rw [hW2 g j o (e j) q rfl hq]
    refine congrArg (· * w2 (ix2 j o)) ?_
    unfold Spec.hidden
    rw [hC1 0 (e j) g j rfl]
    refine congrArg sg (congrArg (· + b1 (ix1 j)) ?_)
    -- the inner sum runs over the four inputs of sample g
    let e' : Fin 4 → Fin 128 := fun a => ⟨4 * g.val + a.val, by have := g.isLt; have := a.isLt; omega⟩
    have he' : Function.Injective e' := by
      intro a a' h
      have := congrArg Fin.val h
      simp only [e'] at this
      exact Fin.ext (by omega)
    rw [sum_eq_sum_of_support e' he']
    · refine Finset.sum_congr rfl fun a _ => ?_
      rw [hX r (e' a) g a s rfl hs, hW1 g a j (e' a) (e j) rfl rfl]
    · intro l hl
      have hne : l.val / 4 ≠ (e j).val / 12 := by
        intro h
        have hj := j.isLt
        have hg : (e j).val / 12 = g.val := by show (12 * g.val + j.val) / 12 = g.val; omega
        rw [hg] at h
        apply hl ⟨l.val % 4, Nat.mod_lt _ (by decide)⟩
        apply Fin.ext
        show 4 * g.val + l.val % 4 = l.val
        omega
      rw [hW1z l (e j) hne, mul_zero]
  · intro k hk
    have hz : k.val / 12 ≠ q.val / 3 ∨ 10 ≤ k.val % 12 := by
      by_contra hcon
      rw [not_or, not_not, not_le] at hcon
      have ho := o.isLt
      have hg : q.val / 3 = g.val := by omega
      apply hk ⟨k.val % 12, hcon.2⟩
      apply Fin.ext
      show 12 * g.val + k.val % 12 = k.val
      have := hcon.1
      omega
    rw [hW2z k q hz, mul_zero]

end Cert.KMath
end
-- ==== Proof.KEntry.lean ====
/-
  One entry of the block the kernel stores at grid point tt, from what the five input blocks hold.  The input blocks
  are rows 512·tt … 512·tt+511 of the row view of x, the two block-diagonal weight matrices and the two bias rows
  whole.  Entry (p, q) of the stored block is then mlp of sample 32·(512·tt + p) + q / 3 at output unit q % 3: the
  identity matrix's diagonal entries are 1 (1 · w = w), its other entries 0 (0 · w = 0), and the appended rows and
  columns of the padded weights are 0 (h · 0 = 0).
-/
import proofs.«150520_g2000108488899871_pallasbulk_1332_4_alg».proof.Proof.KPay
import proofs.«150520_g2000108488899871_pallasbulk_1332_4_alg».proof.Proof.KMath
import proofs.«150520_g2000108488899871_pallasbulk_1332_4_alg».proof.Proof.KOps
import proofs.«150520_g2000108488899871_pallasbulk_1332_4_alg».proof.Proof.KLayout
set_option maxRecDepth 16384

noncomputable section

open scoped BigOperators

namespace Cert.KernelIdeal.KVal

open Idealize.ShloMosaic Idealize.ShloMosaic.ValueIdx
open Cert.KernelIdeal Cert.KernelIdeal.Gen Cert.Spec

variable (x : S2097152x4.Idx → EReal) (w1 : S4x10.Idx → EReal) (b1 : S10.Idx → EReal) (w2 : S10x3.Idx → EReal) (b2 : S3.Idx → EReal)

theorem w1b_off (l : Fin 128) (k : Fin 384) (h : l.val / 4 ≠ k.val / 12) : kron1 eye (w1p w1) (ix2 l k) = 0 := by
  rw [kron1_apply eye (w1p w1) ⟨l.val / 4, by have := l.isLt; omega⟩ ⟨l.val % 4, Nat.mod_lt _ (by decide)⟩
    ⟨k.val / 12, by have := k.isLt; omega⟩ ⟨k.val % 12, Nat.mod_lt _ (by decide)⟩ l k
    (by show l.val = 4 * (l.val / 4) + l.val % 4; omega) (by show k.val = 12 * (k.val / 12) + k.val % 12; omega),
    eye_off (fun e => h (congrArg Fin.val e)), zero_mul]

theorem w1b_on (g : Fin 32) (a : Fin 4) (j : Fin 10) (l : Fin 128) (k : Fin 384)
    (hl : l.val = 4 * g.val + a.val) (hk : k.val = 12 * g.val + j.val) : kron1 eye (w1p w1) (ix2 l k) = w1 (ix2 a j) := by
  rw [kron1_apply eye (w1p w1) g a g ⟨j.val, by have := j.isLt; omega⟩ l k hl hk, eye_diag, one_mul, w1p_apply_lt]

theorem w2b_off (k : Fin 384) (q : Fin 96) (h : k.val / 12 ≠ q.val / 3 ∨ 10 ≤ k.val % 12) : kron2 eye (w2p w2) (ix2 k q) = 0 := by
  rw [kron2_apply eye (w2p w2) ⟨k.val / 12, by have := k.isLt; omega⟩ ⟨k.val % 12, Nat.mod_lt _ (by decide)⟩
    ⟨q.val / 3, by have := q.isLt; omega⟩ ⟨q.val % 3, Nat.mod_lt _ (by decide)⟩ k q
    (by show k.val = 12 * (k.val / 12) + k.val % 12; omega) (by show q.val = 3 * (q.val / 3) + q.val % 3; omega)]
  rcases h with h | h
  · rw [eye_off (fun e => h (congrArg Fin.val e)), zero_mul]
  · rw [w2p_apply_ge w2 _ _ h, mul_zero]

theorem w2b_on (g : Fin 32) (j : Fin 10) (o : Fin 3) (k : Fin 384) (q : Fin 96)
    (hk : k.val = 12 * g.val + j.val) (hq : q.val = 3 * g.val + o.val) : kron2 eye (w2p w2) (ix2 k q) = w2 (ix2 j o) := by
  rw [kron2_apply eye (w2p w2) g ⟨j.val, by have := j.isLt; omega⟩ g o k q hk hq, eye_diag, one_mul, w2p_apply_lt]

/-- Entry (p, q) of the block stored at point tt. -/
theorem entry (x0 : Vec Ideal S512x128 .f32) (x1 : Vec Ideal S128x384 .f32) (x2 : Vec Ideal S1x384 .f32)
    (x3 : Vec Ideal S384x96 .f32) (x4 : Vec Ideal S1x96 .f32) (p : Fin 512) (q : Fin 96) (r : Fin 65536)
    (h0 : ∀ l : Fin 128, x0 (ix2 p l) = xrows x (ix2 r l))
    (h1 : ∀ (l : Fin 128) (k : Fin 384), x1 (ix2 l k) = kron1 eye (w1p w1) (ix2 l k))
    (h2 : ∀ k : Fin 384, x2 (ix2 (0 : Fin 1) k) = b1row b1 (ix2 (0 : Fin 1) k))
    (h3 : ∀ (k : Fin 384) (q : Fin 96), x3 (ix2 k q) = kron2 eye (w2p w2) (ix2 k q))
    (h4 : ∀ q : Fin 96, x4 (ix2 (0 : Fin 1) q) = b2row b2 (ix2 (0 : Fin 1) q))
    (g : Fin 32) (o : Fin 3) (s : Fin 2097152) (hq : q.val = 3 * g.val + o.val) (hs : s.val = 32 * r.val + g.val) :
    k0_pay1 (F := Ideal) x0 x1 x2 x3 x4 (ix2 p q) = mlp x w1 b1 w2 b2 s o := by
  rw [pay_apply]
  simp only [h0, h1, h2, h3, h4]
  exact KMath.kernel_entry x w1 b1 w2 b2 (xrows x) (kron1 eye (w1p w1)) (b1row b1) (kron2 eye (w2p w2)) (b2row b2)
    (fun r l g a s hl hs => xrows_apply x r l g a s hl hs)
    (w1b_off w1) (w1b_on w1) (fun z k g j hk => b1row_apply b1 z k g j hk)
    (w2b_off w2) (w2b_on w2) (fun z q g o hq => b2row_apply b2 z q g o hq)
    r q g o s hq hs

end Cert.KernelIdeal.KVal
end
-- ==== Proof.KFlat.lean ====
/-
  The kernel's output array and its flattening.  The launch's output is 65536×96: entry (r, q) is output unit q % 3 of
  sample 32·r + q / 3.  Flattened row-major, position i = 96·r + q holds output unit i % 3 of sample i / 3, which is the
  specification's flat result.
-/
import proofs.«150520_g2000108488899871_pallasbulk_1332_4_alg».proof.Proof.Gen.KernelIdeal
import proofs.«150520_g2000108488899871_pallasbulk_1332_4_alg».proof.Proof.Spec
import Idealize.ShloMosaic.Lib.ValueIdx
import Idealize.ShloMosaic.Lib.Pipeline.Value
set_option maxRecDepth 16384

noncomputable section

open scoped BigOperators

namespace Cert.KernelIdeal.KVal

open Idealize.ShloMosaic Idealize.ShloMosaic.ValueIdx
open Cert.KernelIdeal Cert.KernelIdeal.Gen Cert.Spec

/-- The output array of the launch: entry (r, q) is output unit q % 3 of sample 32·r + q / 3. -/
def Yk (x : S2097152x4.Idx → EReal) (w1 : S4x10.Idx → EReal) (b1 : S10.Idx → EReal) (w2 : S10x3.Idx → EReal)
    (b2 : S3.Idx → EReal) : S65536x96.Idx → EReal :=
  fun i => mlp x w1 b1 w2 b2
    ⟨32 * (i 0).val + (i 1).val / 3, by have h0 : (i 0).val < 65536 := (i 0).isLt; have h1 : (i 1).val < 96 := (i 1).isLt; omega⟩
    ⟨(i 1).val % 3, Nat.mod_lt _ (by decide)⟩

/-- Flattened, the output array is the specification's flat result. -/
theorem flat_eq (x : S2097152x4.Idx → EReal) (w1 : S4x10.Idx → EReal) (b1 : S10.Idx → EReal) (w2 : S10x3.Idx → EReal)
    (b2 : S3.Idx → EReal) (h : S65536x96.ShapeCasts S6291456) :
    shapeCast S6291456 (Yk x w1 b1 w2 b2) h = G x w1 b1 w2 b2 := by
  funext i
  have hi : (i 0).val < 6291456 := (i 0).isLt
  refine (shapeCast_apply _ h i (ix2 (⟨(i 0).val / 96, by omega⟩ : Fin 65536) (⟨(i 0).val % 96, Nat.mod_lt _ (by decide)⟩ : Fin 96)) ?_).trans ?_
  · rw [Shape.rowMajor_val_two, Shape.rowMajor_val_one]
    show (i 0).val / 96 * 96 + (i 0).val % 96 = (i 0).val
    omega
  · unfold Yk G
    refine congrArg₂ (mlp x w1 b1 w2 b2) (Fin.ext ?_) (Fin.ext ?_)
    · show 32 * ((i 0).val / 96) + (i 0).val % 96 / 3 = (i 0).val / 3
      omega
    · show (i 0).val % 96 % 3 = (i 0).val % 3
      omega

end Cert.KernelIdeal.KVal
end
-- ==== Proof.KBlocks.lean ====
/-
  From the kernel's blocks to its output array.  Grid point t (of 128) reads rows 512·t … 512·t+511 of the row view of
  x and the four parameter arrays whole, and writes back rows 512·t … 512·t+511 of the 65536×96 output.  By the entry
  lemma every written-back entry (r, q) is mlp of sample 32·r + q / 3 at output unit q % 3, and the 128 blocks cover
  all 65536 rows (row r lies in the block of point r / 512), so the output array after the launch is that function.
-/
import proofs.«150520_g2000108488899871_pallasbulk_1332_4_alg».proof.Proof.Gen.KernelIdeal.Frame
import proofs.«150520_g2000108488899871_pallasbulk_1332_4_alg».proof.Proof.KHostA
import proofs.«150520_g2000108488899871_pallasbulk_1332_4_alg».proof.Proof.KHostB
import proofs.«150520_g2000108488899871_pallasbulk_1332_4_alg».proof.Proof.KEntry
import proofs.«150520_g2000108488899871_pallasbulk_1332_4_alg».proof.Proof.KFlat
import Idealize.ShloMosaic.Lib.Pipeline.Value
set_option maxRecDepth 16384

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ)

theorem hz : (![0, 0] : Fin 2 → Nat) = fun _ => 0 := funext fun a => by fin_cases a <;> rfl

/-- The printed index maps over the grid: the x window and the output window are at block t, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The x window's block at point t is rows 512·t … of the row view of x. -/
theorem blk0_apply (c : Dev nD) (t : Fin cfg0.N) (p : Fin 512) (l : Fin 128) (r : Fin 65536) (hr : r.val = t.val * 512 + p.val) :
    (iblk m c 0 t : Vec Ideal S512x128 .f32) (ix2 p l) = xrows (m ((c : Thread nD τ).loc main_arg0)) (ix2 r l) := by
  rw [← V_xrows m c]
  unfold iblk
  rw [View.read_apply]
  show V m c main_v23 _ = V m c main_v23 _
  refine congrArg (V m c main_v23) (funext fun a => Fin.ext ?_)
  obtain ⟨e0, e1, -⟩ := idx_facts t
  match a with
  | ⟨0, _⟩ => show win0_0.index t (0 : Fin 2) * 512 + 1 * p.val = r.val; omega
  | ⟨1, _⟩ => show win0_0.index t (1 : Fin 2) * 128 + 1 * l.val = l.val; omega

/-- The first weight matrix's window is the whole matrix at every point. -/
theorem blk1_apply (c : Dev nD) (t : Fin cfg0.N) (l : Fin 128) (k : Fin 384) :
    (iblk m c 1 t : Vec Ideal S128x384 .f32) (ix2 l k) = kron1 eye (w1p (m ((c : Thread nD τ).loc main_arg1))) (ix2 l k) := by
  rw [← V_w1b m c]
  unfold iblk
  rw [View.read_apply]
  show V m c main_v12 _ = V m c main_v12 _
  refine congrArg (V m c main_v12) (funext fun a => Fin.ext ?_)
  obtain ⟨-, -, e2, e3, -⟩ := idx_facts t
  match a with
  | ⟨0, _⟩ => show win0_1.index t (0 : Fin 2) * 128 + 1 * l.val = l.val; omega
  | ⟨1, _⟩ => show win0_1.index t (1 : Fin 2) * 384 + 1 * k.val = k.val; omega

theorem blk2_apply (c : Dev nD) (t : Fin cfg0.N) (k : Fin 384) :
    (iblk m c 2 t : Vec Ideal S1x384 .f32) (ix2 (0 : Fin 1) k) = b1row (m ((c : Thread nD τ).loc main_arg2)) (ix2 (0 : Fin 1) k) := by
  rw [← V_b1b m c]
  unfold iblk
  rw [View.read_apply]
  show V m c main_v18 _ = V m c main_v18 _
  refine congrArg (V m c main_v18) (funext fun a => Fin.ext ?_)
  obtain ⟨-, -, -, -, e4, e5, -⟩ := idx_facts t
  match a with
  | ⟨0, _⟩ => show win0_2.index t (0 : Fin 2) * 1 + 1 * 0 = 0; omega
  | ⟨1, _⟩ => show win0_2.index t (1 : Fin 2) * 384 + 1 * k.val = k.val; omega

theorem blk3_apply (c : Dev nD) (t : Fin cfg0.N) (k : Fin 384) (q : Fin 96) :
    (iblk m c 3 t : Vec Ideal S384x96 .f32) (ix2 k q) = kron2 eye (w2p (m ((c : Thread nD τ).loc main_arg3))) (ix2 k q) := by
  rw [← V_w2b m c]
  unfold iblk
  rw [View.read_apply]
  show V m c main_v13 _ = V m c main_v13 _
  refine congrArg (V m c main_v13) (funext fun a => Fin.ext ?_)
  obtain ⟨-, -, -, -, -, -, e6, e7, -⟩ := idx_facts t
  match a with
  | ⟨0, _⟩ => show win0_3.index t (0 : Fin 2) * 384 + 1 * k.val = k.val; omega
  | ⟨1, _⟩ => show win0_3.index t (1 : Fin 2) * 96 + 1 * q.val = q.val; omega

theorem blk4_apply (c : Dev nD) (t : Fin cfg0.N) (q : Fin 96) :
    (iblk m c 4 t : Vec Ideal S1x96 .f32) (ix2 (0 : Fin 1) q) = b2row (m ((c : Thread nD τ).loc main_arg4)) (ix2 (0 : Fin 1) q) := by
  rw [← V_b2b m c]
  unfold iblk
  rw [View.read_apply]
  show V m c main_v22 _ = V m c main_v22 _
  refine congrArg (V m c main_v22) (funext fun a => Fin.ext ?_)
  obtain ⟨-, -, -, -, -, -, -, -, e8, e9, -⟩ := idx_facts t
  match a with
  | ⟨0, _⟩ => show win0_4.index t (0 : Fin 2) * 1 + 1 * 0 = 0; omega
  | ⟨1, _⟩ => show win0_4.index t (1 : Fin 2) * 96 + 1 * q.val = q.val; omega

/-- What point t writes back is block t of the output function. -/
theorem flushed_eq (c : Dev nD) (t : Fin cfg0.N) :
    (dats m 0 c).flushed 5 t = ((cfg0.win 5).blk t).view.read (Elt Ideal)
      (Yk (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  rw [after0_5]
  unfold out0_5
  rw [View.canon_unit_zero hz]
  simp only [View.ld_unit_zero (S := S512x128) hz, View.ld_unit_zero (S := S128x384) hz, View.ld_unit_zero (S := S1x384) hz,
    View.ld_unit_zero (S := S384x96) hz, View.ld_unit_zero (S := S1x96) hz]
  funext y
  obtain ⟨p, q, rfl⟩ : ∃ (p : Fin 512) (q : Fin 96), y = ix2 p q := ⟨y 0, y 1, eq_ix2 y⟩
  have ht : t.val < 128 := Nat.lt_of_lt_of_eq t.isLt (show cfg0.N = 128 from N_0)
  obtain ⟨-, -, -, -, -, -, -, -, -, -, e10, e11⟩ := idx_facts t
  have hemb : ((cfg0.win 5).blk t).view.emb (ix2 p q) = (ix2 (⟨t.val * 512 + p.val, by omega⟩ : Fin 65536) q : S65536x96.Idx) := by
    funext a; apply Fin.ext
    match a with
    | ⟨0, _⟩ => show win0_5.index t (0 : Fin 2) * 512 + 1 * p.val = t.val * 512 + p.val; omega
    | ⟨1, _⟩ => show win0_5.index t (1 : Fin 2) * 96 + 1 * q.val = q.val; omega
  rw [View.read_apply, hemb]
  exact entry _ _ _ _ _ (iblk m c 0 t) (iblk m c 1 t) (iblk m c 2 t) (iblk m c 3 t) (iblk m c 4 t) p q
    ⟨t.val * 512 + p.val, by omega⟩
    (fun l => blk0_apply m c t p l _ rfl) (fun l k => blk1_apply m c t l k) (fun k => blk2_apply m c t k)
    (fun k q => blk3_apply m c t k q) (fun q => blk4_apply m c t q)
    ⟨q.val / 3, by have := q.isLt; omega⟩ ⟨q.val % 3, Nat.mod_lt _ (by decide)⟩ _
    (by show q.val = 3 * (q.val / 3) + q.val % 3; omega) rfl

/-- An index of the output array is in point t's block iff its row is among the block's 512 rows. -/
theorem mem_blk (t : Fin cfg0.N) (i : S65536x96.Idx) :
    i ∈ ((cfg0.win 5).blk t).view.set ↔ ∀ a : Fin 2, win0_5.index t a * S512x96.size a ≤ (i a).val ∧ (i a).val < win0_5.index t a * S512x96.size a + S512x96.size a := by
  show i ∈ ((View.whole main_v24).slice (win0_5.rect t)).set ↔ _
  rw [View.set_slice_whole, Rect.mem_set_unit]
  exact Iff.rfl

/-- Every index of the output array lies in the block of the point its row selects. -/
theorem cover (i : S65536x96.Idx) : ∃ t : Fin cfg0.N, (cfg0.win 5).flush t = true ∧ i ∈ ((cfg0.win 5).blk t).view.set := by
  have hi0 : (i 0).val < 65536 := (i 0).isLt
  have hi1 : (i 1).val < 96 := (i 1).isLt
  let t : Fin cfg0.N := ⟨(i 0).val / 512, by rw [show cfg0.N = 128 from N_0]; omega⟩
  refine ⟨t, flush0_5 t, ?_⟩
  rw [mem_blk]
  obtain ⟨-, -, -, -, -, -, -, -, -, -, e10, e11⟩ := idx_facts t
  have htv : t.val = (i 0).val / 512 := rfl
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 96 ≤ (i 1).val ∧ (i 1).val < win0_5.index t (1 : Fin 2) * 96 + 96; omega

/-- The output array after the launch. -/
theorem final (c : Dev nD) : (dats m 0 c).arrAt 5 cfg0.N
    = Yk (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

end Cert.KernelIdeal.KVal
end
-- ==== Proof.KRun.lean ====
/-
  The kernel program's run, read: after the launch one host reshape flattens the 65536×96 output array, so the
  program's result is the specification's flat result of the argument arrays, and the arguments end unchanged.
-/
import proofs.«150520_g2000108488899871_pallasbulk_1332_4_alg».proof.Proof.Gen.KernelIdeal.Frame
import proofs.«150520_g2000108488899871_pallasbulk_1332_4_alg».proof.Proof.KBlocks
import proofs.«150520_g2000108488899871_pallasbulk_1332_4_alg».proof.Proof.KFlat
import Idealize.ShloMosaic.Lib.StableHlo.Run
set_option maxRecDepth 16384

noncomputable section

open scoped BigOperators

namespace Cert.KernelIdeal.KVal

open Idealize.ShloMosaic Idealize.ShloMosaic.TcCoe Idealize.ShloMosaic.StableHlo Idealize.ShloMosaic.ValueIdx Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- The result buffer after the host reshape that follows the launch. -/
theorem tail_eq (c : Dev nD) :
    Pipeline.afterTail₀ cfgs (dats m) 0 (V0 m) [hostOps1] c main_v25
      = G (m ((c : Thread nD τ).loc main_arg0)) (m ((c : Thread nD τ).loc main_arg1)) (m ((c : Thread nD τ).loc main_arg2))
          (m ((c : Thread nD τ).loc main_arg3)) (m ((c : Thread nD τ).loc main_arg4)) := by
  have e : Pipeline.withArrays spec0 c (V0 m c) (fun w => (dats m 0 c).arrAt w cfg0.N) (Proc.devRef .tc main_v24)
      = (dats m 0 c).arrAt 5 cfg0.N := Pipeline.withArrays_arr spec0 launch0.win.arr_inj c _ _ 5
  unfold Pipeline.afterTail₀
  show StableHlo.after hostOps1 _ (Proc.devRef .tc main_v25) = _
  after_results
  rw [← flat_eq _ _ _ _ _ shapeCasts_S65536x96_S6291456, ← final m c, ← e]
  rfl

/-- Every weakly fair execution of the kernel program terminates with the result at the specification's flat result
    of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v25)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KVal
end
-- ==== Proof.RefPay.lean ====
/-
  One block of the network at one entry.  The body of the launched computation takes a block of 4096 samples
  (x0), the first-layer weights padded to 128 columns (x1), the first-layer bias as a row of 128 (x2), the
  second-layer weights padded to 128 rows and 8 columns (x3) and the second-layer bias as a row of 8 (x4), and
  stores  σ((σ(x0 · x1 + x2) · x3 + x4)[:, :3]).  At row r and output unit o this is
      σ( Σ_{k<128} σ( Σ_{a<4} x0(r,a) · x1(a,k) + x2(0,k) ) · x3(k,o) + x4(0,o) ).
  When the padded columns of x3's rows k ≥ 10 are zero and the first ten columns of x1, x2 and the first ten rows
  of x3 are the network's parameters, every term with k ≥ 10 has a zero factor, and the sum over 128 hidden
  positions is the sum over the ten hidden units.
-/
import proofs.«150520_g2000108488899871_pallasbulk_1332_4_alg».proof.Proof.Gen.ReferenceIdeal.Skeleton
import proofs.«150520_g2000108488899871_pallasbulk_1332_4_alg».proof.Proof.Spec
import proofs.«150520_g2000108488899871_pallasbulk_1332_4_alg».proof.Proof.LibMatmul
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx
open Cert.Spec (sg)

/-- The inclusion of the ten hidden units among the 128 padded positions. -/
def e10 (j : Fin 10) : Fin 128 := ⟨j.val, by have := j.isLt; omega⟩
/-- The inclusion of the three output units among the 8 padded positions. -/
def e3 (o : Fin 3) : Fin 8 := ⟨o.val, by have := o.isLt; omega⟩

theorem e10_injective : Function.Injective e10 := fun a b h => Fin.ext (by
  have := congrArg Fin.val h; exact this)

/-- The stored block at row r and output unit o, over the padded operands. -/
theorem pay_apply (x0 : FVec Ideal S4096x4 .f32) (x1 : FVec Ideal S4x128 .f32) (x2 : FVec Ideal S1x128 .f32)
    (x3 : FVec Ideal S128x8 .f32) (x4 : FVec Ideal S1x8 .f32) (r : Fin 4096) (o : Fin 3) :
    k0_pay1 (F := Ideal) x0 x1 x2 x3 x4 (ix2 r o)
      = sg (∑ k : Fin 128, sg (∑ a : Fin 4, x0 (ix2 r a) * x1 (ix2 a k) + x2 (ix2 (0 : Fin 1) k)) * x3 (ix2 k (e3 o))
          + x4 (ix2 (0 : Fin 1) (e3 o))) := by
  unfold k0_pay1
  simp only [shapeCast_self]
  have h1 : matmul dot_S4096x4_S4x128_S4096x128_1_0_0_1_n_n (some ContractPrecision.fp32) x0 x1 (constant S4096x128 .f32 0x00000000#32)
      = Cert.LibMatmul.MM x0 x1 :=
    Cert.LibMatmul.matmul_zero_eq dot_S4096x4_S4x128_S4096x128_1_0_0_1_n_n rfl rfl rfl rfl rfl rfl _ x0 x1
  have h2 : ∀ h : FVec Ideal S4096x128 .f32, matmul dot_S4096x128_S128x8_S4096x8_1_0_0_1_n_n (some ContractPrecision.fp32) h x3 (constant S4096x8 .f32 0x00000000#32)
      = Cert.LibMatmul.MM h x3 := fun h =>
    Cert.LibMatmul.matmul_zero_eq dot_S4096x128_S128x8_S4096x8_1_0_0_1_n_n rfl rfl rfl rfl rfl rfl _ h x3
  rw [h1, h2]
  refine (congrArg sg (extractStridedSlice_apply _ _ slices_S4096x8_o0_0_S4096x3 (ix2 r o) (ix2 r (e3 o)) (fun a => by
    match a with
    | ⟨0, _⟩ => show r.val = 0 + r.val; omega
    | ⟨1, _⟩ => show o.val = 0 + o.val; omega))).trans ?_
  rw [addf_apply, Cert.LibMatmul.MM_apply]
  rw [broadcastTo_apply x4 broadcasts_S1x8_S4096x8 (ix2 r (e3 o)) (ix2 (0 : Fin 1) (e3 o)) (fun a => by
    match a with
    | ⟨0, _⟩ => rfl
    | ⟨1, _⟩ => rfl)]
  congr 2
  refine Finset.sum_congr rfl fun k _ => ?_
  congr 1
  show sg (addf (Cert.LibMatmul.MM x0 x1) (broadcastTo S4096x128 x2 broadcasts_S1x128_S4096x128) (ix2 r k)) = _
  rw [addf_apply, Cert.LibMatmul.MM_apply]
  rw [broadcastTo_apply x2 broadcasts_S1x128_S4096x128 (ix2 r k) (ix2 (0 : Fin 1) k) (fun a => by
    match a with
    | ⟨0, _⟩ => rfl
    | ⟨1, _⟩ => rfl)]

/-- With the padded operands holding the network's parameters in their leading positions and zero in the padded rows
    of the second-layer weights, the stored block at row r and output unit o is the network's output unit o on the
    block's row r: the hidden positions past the tenth contribute products with a zero factor. -/
theorem pay_eq (x0 : FVec Ideal S4096x4 .f32) (x1 : FVec Ideal S4x128 .f32) (x2 : FVec Ideal S1x128 .f32)
    (x3 : FVec Ideal S128x8 .f32) (x4 : FVec Ideal S1x8 .f32)
    (w1 : S4x10.Idx → EReal) (b1 : S10.Idx → EReal) (w2 : S10x3.Idx → EReal) (b2 : S3.Idx → EReal)
    (h1 : ∀ (a : Fin 4) (j : Fin 10), x1 (ix2 a (e10 j)) = w1 (ix2 a j))
    (hb1 : ∀ j : Fin 10, x2 (ix2 (0 : Fin 1) (e10 j)) = b1 (ix1 j))
    (h2 : ∀ (j : Fin 10) (o : Fin 3), x3 (ix2 (e10 j) (e3 o)) = w2 (ix2 j o))
    (h2z : ∀ (k : Fin 128) (q : Fin 8), (∀ j, e10 j ≠ k) → x3 (ix2 k q) = 0)
    (hb2 : ∀ o : Fin 3, x4 (ix2 (0 : Fin 1) (e3 o)) = b2 (ix1 o))
    (r : Fin 4096) (o : Fin 3) :
    k0_pay1 (F := Ideal) x0 x1 x2 x3 x4 (ix2 r o)
      = sg (∑ j : Fin 10, sg (∑ a : Fin 4, x0 (ix2 r a) * w1 (ix2 a j) + b1 (ix1 j)) * w2 (ix2 j o) + b2 (ix1 o)) := by
  rw [pay_apply]
  rw [Cert.Spec.sum_eq_sum_of_support e10 e10_injective
    (fun k : Fin 128 => sg (∑ a : Fin 4, x0 (ix2 r a) * x1 (ix2 a k) + x2 (ix2 (0 : Fin 1) k)) * x3 (ix2 k (e3 o)))
    (fun k hk => by rw [h2z k (e3 o) hk, mul_zero])]
  simp only [h1, hb1, h2, hb2]

end Cert.ReferenceIdeal.RefValue

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.RefHost.lean ====
/-
  The padded parameters as the launched computation finds them.  Before the launch the host writes each parameter
  into the leading positions of a zero array: the first-layer weights [4,10] into [4,128], the first-layer bias
  (as a row [1,10]) into [1,128], the second-layer weights [10,3] into [128,8], the second-layer bias (as a row
  [1,3]) into [1,8].  Each is an overwriting scatter whose start indices are all zero, so update index (p, q) lands
  at (p, q): the padded array holds the parameter at the leading positions and zero elsewhere.
-/
import proofs.«150520_g2000108488899871_pallasbulk_1332_4_alg».proof.Proof.Gen.ReferenceIdeal.Frame
import proofs.«150520_g2000108488899871_pallasbulk_1332_4_alg».proof.Proof.LibScatter
import proofs.«150520_g2000108488899871_pallasbulk_1332_4_alg».proof.Proof.LibCast
import proofs.«150520_g2000108488899871_pallasbulk_1332_4_alg».proof.Proof.RefPay
import Idealize.ShloMosaic.Lib.Pipeline.Value
import Idealize.ShloMosaic.Lib.ValueIdx
import Idealize.ShloMosaic.Lib.ValueLayout

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## Leading positions of a larger array -/

/-- Position (p, q) of an [a, b] array as position (p, q) of an [A, B] array, a ≤ A and b ≤ B. -/
def pad {a b A B : Nat} (ha : a ≤ A) (hb : b ≤ B) (j : (⟨2, ![a, b]⟩ : Shape).Idx) : (⟨2, ![A, B]⟩ : Shape).Idx :=
  ix2 ⟨(j 0).val, Nat.lt_of_lt_of_le (idx2_lt0 j) ha⟩ ⟨(j 1).val, Nat.lt_of_lt_of_le (idx2_lt1 j) hb⟩

theorem pad_injective {a b A B : Nat} (ha : a ≤ A) (hb : b ≤ B) : Function.Injective (pad ha hb) := by
  intro i j h
  have h0 : (i 0).val = (j 0).val := congrArg (fun f : (⟨2, ![A, B]⟩ : Shape).Idx => (f 0).val) h
  have h1 : (i 1).val = (j 1).val := congrArg (fun f : (⟨2, ![A, B]⟩ : Shape).Idx => (f 1).val) h
  funext d
  match d with
  | ⟨0, _⟩ => exact Fin.ext h0
  | ⟨1, _⟩ => exact Fin.ext h1

/-- With an index array that is zero everywhere every start index is zero. -/
theorem start_zero {s si u : Shape} (d : ScatterDims s si u) (idx : IVec si 32) (hidx : ∀ i, idx i = 0#32) (j : u.Idx)
    (a : Fin s.rank) : d.start j idx a = 0 := by
  unfold ScatterDims.start
  split
  · rw [hidx]; decide
  · rfl

/-- The zero index array of one component. -/
abbrev z1 : IVec S1 32 := broadcastInDim S1 ![] bcast_S_S1 (constantI S_ 32 0#32)
/-- The zero index array of two components. -/
abbrev z2 : IVec S2 32 := concatenate S2 0 [⟨S1, z1⟩, ⟨S1, z1⟩] concatenates_S1_S1_S2_d0

theorem z1_apply (i : S1.Idx) : z1 i = 0#32 := rfl

theorem z2_apply (i : S2.Idx) : z2 i = 0#32 := by
  have hlt : (i 0).val < 2 := (i 0).isLt
  by_cases h0 : (i 0).val = 0
  · exact (concatenate_pair_apply_left (0 : Fin S2.rank) z1 z1 concatenates_S1_S1_S2_d0 i rfl (ix1 (0 : Fin 1)) (fun b => by
      match b with
      | ⟨0, _⟩ => exact h0.symm)).trans rfl
  · exact (concatenate_pair_apply_right (0 : Fin S2.rank) z1 z1 concatenates_S1_S1_S2_d0 i rfl rfl (ix1 (0 : Fin 1)) (fun b hb => by
      match b with
      | ⟨0, _⟩ => exact absurd rfl hb) (by
        show 0 + 1 = (i 0).val
        omega)).trans rfl

/-- The zero array, read anywhere. -/
theorem zeros_apply (s : Shape) (h : S_.BroadcastsInDim s (![] : Fin 0 → Fin s.rank)) (i : s.Idx) :
    broadcastInDim s ![] h (constant (F := Ideal) S_ .f32 0x00000000#32) i = 0 :=
  Ideal.ofBits_zero_f32

/-! ## The four padded arrays as the scatter terms -/

variable (m : (ℓ : Loc nD τ sig) → Buf (Elt Ideal) ℓ)

theorem V_v2 (c : Dev nD) : (V m c main_call0_v2 : S4x128.Idx → EReal) =
    Host.scatter scatter_S4x128_S1_S4x10_01_n_1_0 (fun _ b => b)
      (broadcastInDim S4x128 ![] bcast_S_S4x128 (constant (F := Ideal) S_ .f32 0x00000000#32))
      z1 (m ((c : Thread nD τ).loc main_arg1)) := by
  dsimp only [Gen.V, Gen.V0]
  simp only [Gen.hostOps0, List.flatten_cons, List.flatten_nil, List.append_nil, List.cons_append, List.nil_append]
  after_results
  simp only [cast_eq]

theorem V_v6 (c : Dev nD) : (V m c main_call0_v6 : S1x128.Idx → EReal) =
    Host.scatter scatter_S1x128_S1_S1x10_01_n_1_0 (fun _ b => b)
      (broadcastInDim S1x128 ![] bcast_S_S1x128 (constant (F := Ideal) S_ .f32 0x00000000#32))
      z1 (shapeCast S1x10 (m ((c : Thread nD τ).loc main_arg2) : S10.Idx → EReal) shapeCasts_S10_S1x10) := by
  dsimp only [Gen.V, Gen.V0]
  simp only [Gen.hostOps0, List.flatten_cons, List.flatten_nil, List.append_nil, List.cons_append, List.nil_append]
  after_results
  simp only [cast_eq]
  rfl

theorem V_v11 (c : Dev nD) : (V m c main_call0_v11 : S128x8.Idx → EReal) =
    Host.scatter scatter_S128x8_S2_S10x3_01_n_01_0 (fun _ b => b)
      (broadcastInDim S128x8 ![] bcast_S_S128x8 (constant (F := Ideal) S_ .f32 0x00000000#32))
      z2 (m ((c : Thread nD τ).loc main_arg3)) := by
  dsimp only [Gen.V, Gen.V0]
  simp only [Gen.hostOps0, List.flatten_cons, List.flatten_nil, List.append_nil, List.cons_append, List.nil_append]
  after_results
  simp only [cast_eq]

theorem V_v15 (c : Dev nD) : (V m c main_call0_v15 : S1x8.Idx → EReal) =
    Host.scatter scatter_S1x8_S1_S1x3_01_n_1_0 (fun _ b => b)
      (broadcastInDim S1x8 ![] bcast_S_S1x8 (constant (F := Ideal) S_ .f32 0x00000000#32))
      z1 (shapeCast S1x3 (m ((c : Thread nD τ).loc main_arg4) : S3.Idx → EReal) shapeCasts_S3_S1x3) := by
  dsimp only [Gen.V, Gen.V0]
  simp only [Gen.hostOps0, List.flatten_cons, List.flatten_nil, List.append_nil, List.cons_append, List.nil_append]
  after_results
  simp only [cast_eq]
  rfl

/-! ## The padded arrays read at an index -/

/-- First-layer weights: column j < 10 of the padded array is column j of the parameter. -/
theorem v2_apply (c : Dev nD) (a : Fin 4) (j : Fin 10) :
    (V m c main_call0_v2 : S4x128.Idx → EReal) (ix2 a (e10 j)) = (m ((c : Thread nD τ).loc main_arg1) : S4x10.Idx → EReal) (ix2 a j) := by
  rw [V_v2]
  exact Cert.LibScatter.scatter_zero_start_apply_emb scatter_S4x128_S1_S4x10_01_n_1_0 _ z1 _
    (pad (by decide : 4 ≤ 4) (by decide : 10 ≤ 128))
    (fun j a => start_zero _ z1 z1_apply j a)
    (fun j a => by match a with | ⟨0, _⟩ => rfl | ⟨1, _⟩ => rfl)
    (pad_injective _ _) (ix2 a j)

/-- First-layer bias: position j < 10 of the padded row is entry j of the parameter. -/
theorem v6_apply (c : Dev nD) (j : Fin 10) :
    (V m c main_call0_v6 : S1x128.Idx → EReal) (ix2 (0 : Fin 1) (e10 j)) = (m ((c : Thread nD τ).loc main_arg2) : S10.Idx → EReal) (ix1 j) := by
  rw [V_v6]
  refine (Cert.LibScatter.scatter_zero_start_apply_emb scatter_S1x128_S1_S1x10_01_n_1_0 _ z1 _
    (pad (by decide : 1 ≤ 1) (by decide : 10 ≤ 128))
    (fun j a => start_zero _ z1 z1_apply j a)
    (fun j a => by match a with | ⟨0, _⟩ => rfl | ⟨1, _⟩ => rfl)
    (pad_injective _ _) (ix2 (0 : Fin 1) j)).trans ?_
  rw [Cert.LibCast.shapeCast_row]

/-- Second-layer weights: entry (j, o), j < 10 and o < 3, of the padded array is entry (j, o) of the parameter. -/
theorem v11_apply (c : Dev nD) (j : Fin 10) (o : Fin 3) :
    (V m c main_call0_v11 : S128x8.Idx → EReal) (ix2 (e10 j) (e3 o)) = (m ((c : Thread nD τ).loc main_arg3) : S10x3.Idx → EReal) (ix2 j o) := by
  rw [V_v11]
  exact Cert.LibScatter.scatter_zero_start_apply_emb scatter_S128x8_S2_S10x3_01_n_01_0 _ z2 _
    (pad (by decide : 10 ≤ 128) (by decide : 3 ≤ 8))
    (fun j a => start_zero _ z2 z2_apply j a)
    (fun j a => by match a with | ⟨0, _⟩ => rfl | ⟨1, _⟩ => rfl)
    (pad_injective _ _) (ix2 j o)

/-- Second-layer weights: a row past the tenth of the padded array is zero. -/
theorem v11_zero (c : Dev nD) (k : Fin 128) (q : Fin 8) (hk : ∀ j, e10 j ≠ k) :
    (V m c main_call0_v11 : S128x8.Idx → EReal) (ix2 k q) = (0 : EReal) := by
  rw [V_v11]
  refine (Cert.LibScatter.scatter_zero_start_apply_off scatter_S128x8_S2_S10x3_01_n_01_0 _ z2 _
    (pad (by decide : 10 ≤ 128) (by decide : 3 ≤ 8))
    (fun j a => start_zero _ z2 z2_apply j a)
    (fun j a => by match a with | ⟨0, _⟩ => rfl | ⟨1, _⟩ => rfl)
    (ix2 k q) (fun j' h => hk (j' 0) (Fin.ext (congrArg (fun f : S128x8.Idx => (f 0).val) h)))).trans ?_
  exact zeros_apply _ _ _

/-- Second-layer bias: position o < 3 of the padded row is entry o of the parameter. -/
theorem v15_apply (c : Dev nD) (o : Fin 3) :
    (V m c main_call0_v15 : S1x8.Idx → EReal) (ix2 (0 : Fin 1) (e3 o)) = (m ((c : Thread nD τ).loc main_arg4) : S3.Idx → EReal) (ix1 o) := by
  rw [V_v15]
  refine (Cert.LibScatter.scatter_zero_start_apply_emb scatter_S1x8_S1_S1x3_01_n_1_0 _ z1 _
    (pad (by decide : 1 ≤ 1) (by decide : 3 ≤ 8))
    (fun j a => start_zero _ z1 z1_apply j a)
    (fun j a => by match a with | ⟨0, _⟩ => rfl | ⟨1, _⟩ => rfl)
    (pad_injective _ _) (ix2 (0 : Fin 1) o)).trans ?_
  rw [Cert.LibCast.shapeCast_row]

end Cert.ReferenceIdeal.RefValue
end
-- ==== Proof.RefFlat.lean ====
/-
  The reference's output array and its flattening.  The launch's output is 2097152×3: entry (s, o) is output unit o of
  sample s.  Flattened row-major, position i = 3·s + o holds output unit i % 3 of sample i / 3, which is the
  specification's flat result.
-/
import proofs.«150520_g2000108488899871_pallasbulk_1332_4_alg».proof.Proof.Gen.ReferenceIdeal
import proofs.«150520_g2000108488899871_pallasbulk_1332_4_alg».proof.Proof.Spec
import Idealize.ShloMosaic.Lib.ValueIdx
import Idealize.ShloMosaic.Lib.Pipeline.Value
set_option maxRecDepth 16384

noncomputable section

open scoped BigOperators

namespace Cert.ReferenceIdeal.RefValue

open Idealize.ShloMosaic Idealize.ShloMosaic.ValueIdx
open Cert.ReferenceIdeal Cert.ReferenceIdeal.Gen Cert.Spec

/-- The output array of the launch: entry (s, o) is output unit o of sample s. -/
def Yr (x : S2097152x4.Idx → EReal) (w1 : S4x10.Idx → EReal) (b1 : S10.Idx → EReal) (w2 : S10x3.Idx → EReal)
    (b2 : S3.Idx → EReal) : S2097152x3.Idx → EReal :=
  fun i => mlp x w1 b1 w2 b2 (i 0) (i 1)

theorem Yr_apply (x : S2097152x4.Idx → EReal) (w1 : S4x10.Idx → EReal) (b1 : S10.Idx → EReal) (w2 : S10x3.Idx → EReal)
    (b2 : S3.Idx → EReal) (s : Fin 2097152) (o : Fin 3) : Yr x w1 b1 w2 b2 (ix2 s o) = mlp x w1 b1 w2 b2 s o := rfl

/-- Flattened, the output array is the specification's flat result. -/
theorem flat_eq (x : S2097152x4.Idx → EReal) (w1 : S4x10.Idx → EReal) (b1 : S10.Idx → EReal) (w2 : S10x3.Idx → EReal)
    (b2 : S3.Idx → EReal) (h : S2097152x3.ShapeCasts S6291456) :
    shapeCast S6291456 (Yr x w1 b1 w2 b2) h = G x w1 b1 w2 b2 := by
  funext i
  have hi : (i 0).val < 6291456 := (i 0).isLt
  exact shapeCast_apply _ h i (ix2 (⟨(i 0).val / 3, by omega⟩ : Fin 2097152) (⟨(i 0).val % 3, Nat.mod_lt _ (by decide)⟩ : Fin 3)) (by
    rw [Shape.rowMajor_val_two, Shape.rowMajor_val_one]
    show (i 0).val / 3 * 3 + (i 0).val % 3 = (i 0).val
    omega)

end Cert.ReferenceIdeal.RefValue
end
-- ==== Proof.RefBlocks.lean ====
/-
  From blocks to the array.  The launched computation runs at 512 points; at point t it reads rows
  4096·t … 4096·t + 4095 of the samples and the four padded parameters whole, and writes rows 4096·t … 4096·t + 4095
  of the [2097152, 3] result.  Every row r of the result lies in the block of point r / 4096, and every block is the
  corresponding rows of ONE array: entry (s, o) is output unit o of the network on sample s.
-/
import proofs.«150520_g2000108488899871_pallasbulk_1332_4_alg».proof.Proof.Gen.ReferenceIdeal.Frame
import proofs.«150520_g2000108488899871_pallasbulk_1332_4_alg».proof.Proof.Spec
import proofs.«150520_g2000108488899871_pallasbulk_1332_4_alg».proof.Proof.RefPay
import proofs.«150520_g2000108488899871_pallasbulk_1332_4_alg».proof.Proof.RefHost
import proofs.«150520_g2000108488899871_pallasbulk_1332_4_alg».proof.Proof.RefFlat
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.Pipeline (Dat)
open Cert.Spec (sg)

variable (m : (ℓ : Loc nD τ sig) → Buf (Elt Ideal) ℓ)

theorem hz : (![0, 0] : Fin 2 → Nat) = fun _ => 0 := funext fun a => by fin_cases a <;> rfl

/-- The printed index maps, decided over the 512 points: the samples' and the result's block index is (t, 0), each
    parameter's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The samples' block at point t holds rows 4096·t … of the samples. -/
theorem iblk0_apply (c : Dev nD) (t : Fin cfg0.N) (y : S4096x4.Idx) (k : S2097152x4.Idx)
    (hk0 : (k 0).val = 4096 * t.val + (y 0).val) (hk1 : (k 1).val = (y 1).val) :
    (iblk m c 0 t : S4096x4.Idx → EReal) y = (m ((c : Thread nD τ).loc main_arg0) : S2097152x4.Idx → EReal) k := by
  obtain ⟨e0, e1, -⟩ := idx_facts t
  rw [← V_main_arg0 m c]
  show V m c main_arg0 (((cfg0.win 0).blk t).view.emb y) = V m c main_arg0 k
  refine congrArg _ ?_
  funext a
  apply Fin.ext
  match a with
  | ⟨0, _⟩ => show win0_0.index t (0 : Fin 2) * 4096 + 1 * (y 0).val = (k 0).val; rw [e0, hk0]; omega
  | ⟨1, _⟩ => show win0_0.index t (1 : Fin 2) * 4 + 1 * (y 1).val = (k 1).val; rw [e1, hk1]; omega

/-- Each parameter's block at any point is the whole padded array. -/
theorem iblk1_apply (c : Dev nD) (t : Fin cfg0.N) (y : S4x128.Idx) :
    (iblk m c 1 t : S4x128.Idx → EReal) y = (V m c main_call0_v2 : S4x128.Idx → EReal) y := by
  obtain ⟨-, -, e0, e1, -⟩ := idx_facts t
  show V m c main_call0_v2 (((cfg0.win 1).blk t).view.emb y) = V m c main_call0_v2 y
  refine congrArg _ ?_
  funext a
  apply Fin.ext
  match a with
  | ⟨0, _⟩ => show win0_1.index t (0 : Fin 2) * 4 + 1 * (y 0).val = (y 0).val; rw [e0]; omega
  | ⟨1, _⟩ => show win0_1.index t (1 : Fin 2) * 128 + 1 * (y 1).val = (y 1).val; rw [e1]; omega

theorem iblk2_apply (c : Dev nD) (t : Fin cfg0.N) (y : S1x128.Idx) :
    (iblk m c 2 t : S1x128.Idx → EReal) y = (V m c main_call0_v6 : S1x128.Idx → EReal) y := by
  obtain ⟨-, -, -, -, e0, e1, -⟩ := idx_facts t
  show V m c main_call0_v6 (((cfg0.win 2).blk t).view.emb y) = V m c main_call0_v6 y
  refine congrArg _ ?_
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem iblk3_apply (c : Dev nD) (t : Fin cfg0.N) (y : S128x8.Idx) :
    (iblk m c 3 t : S128x8.Idx → EReal) y = (V m c main_call0_v11 : S128x8.Idx → EReal) y := by
  obtain ⟨-, -, -, -, -, -, e0, e1, -⟩ := idx_facts t
  show V m c main_call0_v11 (((cfg0.win 3).blk t).view.emb y) = V m c main_call0_v11 y
  refine congrArg _ ?_
  funext a
  apply Fin.ext
  match a with
  | ⟨0, _⟩ => show win0_3.index t (0 : Fin 2) * 128 + 1 * (y 0).val = (y 0).val; rw [e0]; omega
  | ⟨1, _⟩ => show win0_3.index t (1 : Fin 2) * 8 + 1 * (y 1).val = (y 1).val; rw [e1]; omega

theorem iblk4_apply (c : Dev nD) (t : Fin cfg0.N) (y : S1x8.Idx) :
    (iblk m c 4 t : S1x8.Idx → EReal) y = (V m c main_call0_v15 : S1x8.Idx → EReal) y := by
  obtain ⟨-, -, -, -, -, -, -, -, e0, e1, -⟩ := idx_facts t
  show V m c main_call0_v15 (((cfg0.win 4).blk t).view.emb y) = V m c main_call0_v15 y
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 8 + 1 * (y 1).val = (y 1).val; rw [e1]; omega

/-- One block's stored value, over variables: if x0 holds rows 4096·tv … of the samples X and the four padded
    operands hold the parameters as the padding lemmas say, the stored block at (r, o) is output unit o of the
    network on sample 4096·tv + r. -/
theorem block_eq (X : S2097152x4.Idx → EReal) (w1 : S4x10.Idx → EReal) (b1 : S10.Idx → EReal) (w2 : S10x3.Idx → EReal)
    (b2 : S3.Idx → EReal) (x0 : FVec Ideal S4096x4 .f32) (x1 : FVec Ideal S4x128 .f32) (x2 : FVec Ideal S1x128 .f32)
    (x3 : FVec Ideal S128x8 .f32) (x4 : FVec Ideal S1x8 .f32) (tv : Nat) (htv : tv < 512)
    (h0 : ∀ (r : Fin 4096) (a : Fin 4), x0 (ix2 r a) = X (ix2 (⟨4096 * tv + r.val, by have := r.isLt; omega⟩ : Fin 2097152) a))
    (h1 : ∀ (a : Fin 4) (j : Fin 10), x1 (ix2 a (e10 j)) = w1 (ix2 a j))
    (hb1 : ∀ j : Fin 10, x2 (ix2 (0 : Fin 1) (e10 j)) = b1 (ix1 j))
    (h2 : ∀ (j : Fin 10) (o : Fin 3), x3 (ix2 (e10 j) (e3 o)) = w2 (ix2 j o))
    (h2z : ∀ (k : Fin 128) (q : Fin 8), (∀ j, e10 j ≠ k) → x3 (ix2 k q) = 0)
    (hb2 : ∀ o : Fin 3, x4 (ix2 (0 : Fin 1) (e3 o)) = b2 (ix1 o))
    (r : Fin 4096) (o : Fin 3) :
    k0_pay1 (F := Ideal) x0 x1 x2 x3 x4 (ix2 r o)
      = Cert.Spec.mlp X w1 b1 w2 b2 (⟨4096 * tv + r.val, by have := r.isLt; omega⟩ : Fin 2097152) o := by
  rw [pay_eq x0 x1 x2 x3 x4 w1 b1 w2 b2 h1 hb1 h2 h2z hb2 r o]
  unfold Cert.Spec.mlp Cert.Spec.hidden
  simp only [h0]

/-- The array of the network's outputs on the arguments as launched. -/
abbrev Y (c : Dev nD) : S2097152x3.Idx → EReal :=
  Yr (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT t WRITES BACK is block t of the array of the network's outputs. -/
theorem flushed_eq (c : Dev nD) (t : Fin cfg0.N) :
    (dats m 0 c).flushed 5 t = ((cfg0.win 5).blk t).view.read (Elt Ideal) (Y m c) := by
  show (cfg0.win 5).cut (grid0.coords t) ((dats m 0 c).after 5 t) = _
  rw [after0_5]
  unfold out0_5
  rw [View.canon_unit_zero hz]
  simp only [View.ld_unit_zero (S := S4096x4) hz, View.ld_unit_zero (S := S4x128) hz, View.ld_unit_zero (S := S1x128) hz,
    View.ld_unit_zero (S := S128x8) hz, View.ld_unit_zero (S := S1x8) hz]
  obtain ⟨-, -, -, -, -, -, -, -, -, -, e0, e1⟩ := idx_facts t
  have htN : t.val < 512 := Nat.lt_of_lt_of_eq t.isLt (show cfg0.N = 512 from N_0)
  funext y
  show k0_pay1 (F := Ideal) (iblk m c 0 t) (iblk m c 1 t) (iblk m c 2 t) (iblk m c 3 t) (iblk m c 4 t) y
    = Y m c (((cfg0.win 5).blk t).view.emb y)
  have hy0 : (y 0).val < 4096 := (y 0).isLt
  refine ((congrArg (k0_pay1 (F := Ideal) (iblk m c 0 t) (iblk m c 1 t) (iblk m c 2 t) (iblk m c 3 t) (iblk m c 4 t))
      (eq_ix2 (n0 := 4096) (n1 := 3) y)).trans
    (block_eq (m ((c : Thread nD τ).loc main_arg0)) (m ((c : Thread nD τ).loc main_arg1)) (m ((c : Thread nD τ).loc main_arg2))
      (m ((c : Thread nD τ).loc main_arg3)) (m ((c : Thread nD τ).loc main_arg4))
      (iblk m c 0 t) (iblk m c 1 t) (iblk m c 2 t) (iblk m c 3 t) (iblk m c 4 t) t.val htN
      (fun r a => iblk0_apply m c t (ix2 r a) (ix2 (⟨4096 * t.val + r.val, by have := r.isLt; omega⟩ : Fin 2097152) a) rfl rfl)
      (fun a j => (iblk1_apply m c t (ix2 a (e10 j))).trans (v2_apply m c a j))
      (fun j => (iblk2_apply m c t (ix2 (0 : Fin 1) (e10 j))).trans (v6_apply m c j))
      (fun j o => (iblk3_apply m c t (ix2 (e10 j) (e3 o))).trans (v11_apply m c j o))
      (fun k q hk => (iblk3_apply m c t (ix2 k q)).trans (v11_zero m c k q hk))
      (fun o => (iblk4_apply m c t (ix2 (0 : Fin 1) (e3 o))).trans (v15_apply m c o))
      (y 0) (y 1))).trans ?_
  have a0 : (((cfg0.win 5).blk t).view.emb y) 0 = (⟨4096 * t.val + (y 0).val, by omega⟩ : Fin 2097152) :=
    Fin.ext (by show win0_5.index t (0 : Fin 2) * 4096 + 1 * (y 0).val = 4096 * t.val + (y 0).val; rw [e0]; omega)
  have a1 : (((cfg0.win 5).blk t).view.emb y) 1 = y 1 :=
    Fin.ext (by show win0_5.index t (1 : Fin 2) * 3 + 1 * (y 1).val = (y 1).val; rw [e1]; omega)
  show Cert.Spec.mlp _ _ _ _ _ _ _ = Cert.Spec.mlp _ _ _ _ _ ((((cfg0.win 5).blk t).view.emb y) 0) ((((cfg0.win 5).blk t).view.emb y) 1)
  rw [a0, a1]

/-- An index of the result array is in point t's block iff each coordinate is in the block's range on its axis. -/
theorem mem_blk (t : Fin cfg0.N) (i : S2097152x3.Idx) :
    i ∈ ((cfg0.win 5).blk t).view.set ↔ ∀ a : Fin 2, win0_5.index t a * S4096x3.size a ≤ (i a).val ∧ (i a).val < win0_5.index t a * S4096x3.size a + S4096x3.size a := by
  show i ∈ ((View.whole main_call0_v16).slice (win0_5.rect t)).set ↔ _
  rw [View.set_slice_whole, Rect.mem_set_unit]
  exact Iff.rfl

/-- Row r of the result lies in the block of point r / 4096. -/
theorem cover (i : S2097152x3.Idx) : ∃ t : Fin cfg0.N, (cfg0.win 5).flush t = true ∧ i ∈ ((cfg0.win 5).blk t).view.set := by
  have hi0 : (i 0).val < 2097152 := (i 0).isLt
  have hi1 : (i 1).val < 3 := (i 1).isLt
  have hN : cfg0.N = 512 := N_0
  let t : Fin cfg0.N := ⟨(i 0).val / 4096, by rw [hN]; omega⟩
  obtain ⟨-, -, -, -, -, -, -, -, -, -, e0, e1⟩ := idx_facts t
  have ht : t.val = (i 0).val / 4096 := rfl
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; rw [e0, ht]; omega
  | ⟨1, _⟩ => show win0_5.index t (1 : Fin 2) * 3 ≤ (i 1).val ∧ (i 1).val < win0_5.index t (1 : Fin 2) * 3 + 3; rw [e1]; omega

/-- THE RESULT ARRAY after the launch is the array of the network's outputs. -/
theorem final (c : Dev nD) : (dats m 0 c).arrAt 5 cfg0.N
    = Yr (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 (Y m c) (fun t _ => flushed_eq m c t) cover

end Cert.ReferenceIdeal.RefValue
end
-- ==== Proof.RefRun.lean ====
/-
  The reference program's run, read: after the launch one host reshape flattens the 2097152×3 output array, so the
  program's result is the specification's flat result of the argument arrays, and the arguments end unchanged.
-/
import proofs.«150520_g2000108488899871_pallasbulk_1332_4_alg».proof.Proof.Gen.ReferenceIdeal.Frame
import proofs.«150520_g2000108488899871_pallasbulk_1332_4_alg».proof.Proof.RefBlocks
import proofs.«150520_g2000108488899871_pallasbulk_1332_4_alg».proof.Proof.RefFlat
import Idealize.ShloMosaic.Lib.StableHlo.Run
set_option maxRecDepth 16384

noncomputable section

open scoped BigOperators

namespace Cert.ReferenceIdeal.RefValue

open Idealize.ShloMosaic Idealize.ShloMosaic.TcCoe Idealize.ShloMosaic.StableHlo Idealize.ShloMosaic.ValueIdx Idealize.SL.Sem
open Idealize.ShloMosaic.Pipeline (Dat)
open Cert.ReferenceIdeal Cert.ReferenceIdeal.Gen Cert.Spec

variable (m : (ℓ : Loc nD τ sig) → Buf (Elt Ideal) ℓ) (ρ : Dev nD → PrngReg)

/-- The result buffer after the host reshape that follows the launch. -/
theorem tail_eq (c : Dev nD) :
    Pipeline.afterTail₀ cfgs (dats m) 0 (V0 m) [hostOps1] c main_v0
      = G (m ((c : Thread nD τ).loc main_arg0)) (m ((c : Thread nD τ).loc main_arg1)) (m ((c : Thread nD τ).loc main_arg2))
          (m ((c : Thread nD τ).loc main_arg3)) (m ((c : Thread nD τ).loc main_arg4)) := by
  have e : Pipeline.withArrays spec0 c (V0 m c) (fun w => (dats m 0 c).arrAt w cfg0.N) (Proc.devRef .tc main_call0_v16)
      = (dats m 0 c).arrAt 5 cfg0.N := Pipeline.withArrays_arr spec0 launch0.win.arr_inj c _ _ 5
  unfold Pipeline.afterTail₀
  show StableHlo.after hostOps1 _ (Proc.devRef .tc main_v0) = _
  after_results
  rw [← flat_eq _ _ _ _ _ shapeCasts_S2097152x3_S6291456, ← final m c, ← e]
  rfl

/-- Every weakly fair execution of the reference program terminates with the result at the specification's flat
    result of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.RefValue
end
-- ==== Proof.lean ====
/-
  The certificate of the fused two-layer perceptron: for every sample s (a row of x) and output unit o,

      y(3·s + o) = σ( Σ_{j<10} σ( Σ_{a<4} x(s,a) · w1(a,j) + b1(j) ) · w2(j,o) + b2(o) ),     σ the logistic function.

  The kernel program packs 32 samples into one 128-wide row and multiplies by block-diagonal weights (the Kronecker
  product of the 32×32 identity with the zero-padded weights); the reference program keeps one sample per row and
  zero-pads the hidden layer to 128 units and the output to 8.  On the extended reals both reduce to the formula above:
  every extra term of their sums is a product with an exact zero, and 0 · v = v · 0 = 0 for every extended real v, so
  the equality needs no finiteness of the inputs and the precondition is not used for it.  The kernel side is proved in
  the modules K…, the reference side in the modules Ref…, both against the one statement in Spec.  The ideal pass
  rewrote nothing, so the kernel's idealization is the printed program itself read over the extended reals.
-/
import proofs.«150520_g2000108488899871_pallasbulk_1332_4_alg».proof.Defs
import proofs.«150520_g2000108488899871_pallasbulk_1332_4_alg».proof.Proof.Gen.Kernel
import proofs.«150520_g2000108488899871_pallasbulk_1332_4_alg».proof.Proof.Gen.Kernel.Frame
import proofs.«150520_g2000108488899871_pallasbulk_1332_4_alg».proof.Proof.Gen.KernelIdeal
import proofs.«150520_g2000108488899871_pallasbulk_1332_4_alg».proof.Proof.Gen.KernelIdeal.Frame
import proofs.«150520_g2000108488899871_pallasbulk_1332_4_alg».proof.Proof.Gen.ReferenceIdeal
import proofs.«150520_g2000108488899871_pallasbulk_1332_4_alg».proof.Proof.Gen.ReferenceIdeal.Frame
import proofs.«150520_g2000108488899871_pallasbulk_1332_4_alg».proof.Proof.Gen.Pre_finite_inputs
import proofs.«150520_g2000108488899871_pallasbulk_1332_4_alg».proof.Proof.KRun
import proofs.«150520_g2000108488899871_pallasbulk_1332_4_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both programs end with the specification's flat result of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
